-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v129) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg8 : FVec F S128x2 .f32) (main_arg9 : FVec F S2 .f32) (main_v33 : IVec S_ 1) : IVec S_ 1 :=
  let main_v34 : FVec F S128x2 .f32 := Host.absf main_arg8
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg5 : FVec F S3x128 .f32) (main_arg6 : FVec F S3x128 .f32) (main_arg7 : FVec F S3x128 .f32) (main_arg8 : FVec F S128x2 .f32) (main_arg9 : FVec F S2 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S3x128x128 .f32) (main_arg3 : FVec F S3x128 .f32) (main_arg4 : FVec F S3x128 .f32) (main_arg5 : FVec F S3x128 .f32) (main_arg6 : FVec F S3x128 .f32) (main_arg7 : FVec F S3x128 .f32) (main_arg8 : FVec F S128x2 .f32) (main_arg9 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S5000x128 : Shape := ⟨2, ![5000, 128]⟩
abbrev S1700000x128 : Shape := ⟨2, ![1700000, 128]⟩
abbrev S1x128 : Shape := ⟨2, ![1, 128]⟩
abbrev S128 : Shape := ⟨1, ![128]⟩
abbrev S1x2 : Shape := ⟨2, ![1, 2]⟩
abbrev S100000x2 : Shape := ⟨2, ![100000, 2]⟩
abbrev S5000x2 : Shape := ⟨2, ![5000, 2]⟩
abbrev S5000 : Shape := ⟨1, ![5000]⟩
abbrev S5000x1 : Shape := ⟨2, ![5000, 1]⟩

abbrev nBuf : Space → Nat
  | .hbm => 160
  | .vmem => 48
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128, .f32⟩
  | 5 => ⟨S3x128, .f32⟩
  | 6 => ⟨S3x128, .f32⟩
  | 7 => ⟨S3x128, .f32⟩
  | 8 => ⟨S128x2, .f32⟩
  | 9 => ⟨S2, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S1x128x128, .f32⟩
  | 54 => ⟨S128x128, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S1x128, .f32⟩
  | 81 => ⟨S128, .f32⟩
  | 82 => ⟨S1x128, .f32⟩
  | 83 => ⟨S1x128, .f32⟩
  | 84 => ⟨S1x128, .f32⟩
  | 85 => ⟨S1x128, .f32⟩
  | 86 => ⟨S1x128, .f32⟩
  | 87 => ⟨S100000x128, .f32⟩
  | 88 => ⟨S1x128x128, .f32⟩
  | 89 => ⟨S128x128, .f32⟩
  | 90 => ⟨S100000x128, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x128, .f32⟩
  | 100 => ⟨S1700000x1, .f32⟩
  | 101 => ⟨S1700000x128, .f32⟩
  | 102 => ⟨S1700000x128, .f32⟩
  | 103 => ⟨S_, .f32⟩
  | 104 => ⟨S100000x128, .f32⟩
  | 105 => ⟨S1700000x1, .i32⟩
  | 106 => ⟨S100000x128, .f32⟩
  | 107 => ⟨S1x128, .f32⟩
  | 108 => ⟨S128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S1x128, .f32⟩
  | 119 => ⟨S1x128, .f32⟩
  | 120 => ⟨S1x128, .f32⟩
  | 121 => ⟨S1x128, .f32⟩
  | 122 => ⟨S100000x128, .f32⟩
  | 123 => ⟨S1x128x128, .f32⟩
  | 124 => ⟨S128x128, .f32⟩
  | 125 => ⟨S100000x128, .f32⟩
  | 126 => ⟨S_, .i32⟩
  | 127 => ⟨S1700000, .i32⟩
  | _ => ⟨S100000x128, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x128, .f32⟩
  | 7 => ⟨S1700000x1, .f32⟩
  | 8 => ⟨S1700000x128, .f32⟩
  | 9 => ⟨S1700000x128, .f32⟩
  | 10 => ⟨S_, .f32⟩
  | 11 => ⟨S100000x128, .f32⟩
  | 12 => ⟨S1700000x1, .i32⟩
  | 13 => ⟨S100000x128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S128, .f32⟩
  | 22 => ⟨S1x128, .f32⟩
  | 23 => ⟨S128, .f32⟩
  | 24 => ⟨S1x128, .f32⟩
  | 25 => ⟨S1x128, .f32⟩
  | 26 => ⟨S1x128, .f32⟩
  | 27 => ⟨S1x128, .f32⟩
  | 28 => ⟨S1x128, .f32⟩
  | 29 => ⟨S100000x128, .f32⟩
  | 30 => ⟨S1x2, .f32⟩
  | 31 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x2, .f32⟩
  | .local _ .vmem, ⟨45, _⟩ => ⟨S1x2, .f32⟩
  | .local _ .vmem, ⟨46, _⟩ => ⟨S5000x2, .f32⟩
  | .local _ .vmem, ⟨47, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_10 : Ref sig .tc := ⟨.hbm, 91, rfl⟩
abbrev main_v67 : Ref sig .tc := ⟨.hbm, 92, rfl⟩
abbrev main_v68 : Ref sig .tc := ⟨.hbm, 93, rfl⟩
abbrev main_c_11 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_12 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_c_13 : Ref sig .tc := ⟨.hbm, 126, rfl⟩
abbrev main_v99 : Ref sig .tc := ⟨.hbm, 127, rfl⟩
abbrev main_v100 : Ref sig .tc := ⟨.hbm, 128, rfl⟩
abbrev main_c_14 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_15 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem6_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x2 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S2_S1x2 : S2.ShapeCasts S1x2
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S100000x128.size a
  hwx3_6 : ∀ i : grid3.Coords, EltTy.bits .f32 = 32 ∨ (Rect.block (s := S100000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S100000x128.size a
  hwx5_6 : ∀ i : grid5.Coords, EltTy.bits .f32 = 32 ∨ (Rect.block (s := S100000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2.size a ≤ S128x2.size a
  hwx6_1 : ∀ i : grid6.Coords, EltTy.bits .f32 = 32 ∨ (Rect.block (s := S128x2) S128x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x2.size a ≤ S100000x2.size a
  hwx6_3 : ∀ i : grid6.Coords, EltTy.bits .f32 = 32 ∨ (Rect.block (s := S100000x2) S5000x2.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v60) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v61) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v62) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v63) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v63) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v79) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v92) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v94) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v95) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v95) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v97) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v98) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v111) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v122) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v124) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v125) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v126) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v127) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v127) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v128) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v129) S5000x2.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S128x2 : Shape := ⟨2, ![128, 2]⟩
abbrev S2 : Shape := ⟨1, ![2]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x128x128 : Shape := ⟨3, ![1, 128, 128]⟩
abbrev S128x128 : Shape := ⟨2, ![128, 128]⟩
abbrev S1700000x128 : Shape := ⟨2, ![1700000, 128]⟩
abbrev S1x128 : Shape := ⟨2, ![1, 128]⟩
abbrev S128 : Shape := ⟨1, ![128]⟩
abbrev S100000x2 : Shape := ⟨2, ![100000, 2]⟩
abbrev S1x2 : Shape := ⟨2, ![1, 2]⟩
abbrev S100000x1 : Shape := ⟨2, ![100000, 1]⟩

abbrev nBuf : Space → Nat
  | .hbm => 225
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128, .f32⟩
  | 5 => ⟨S3x128, .f32⟩
  | 6 => ⟨S3x128, .f32⟩
  | 7 => ⟨S3x128, .f32⟩
  | 8 => ⟨S128x2, .f32⟩
  | 9 => ⟨S2, .f32⟩
  | 10 => ⟨S100000, .i32⟩
  | 11 => ⟨S1x1600000, .i32⟩
  | 12 => ⟨S1600000, .i32⟩
  | 13 => ⟨S1700000, .i32⟩
  | 14 => ⟨S1x1600000, .i32⟩
  | 15 => ⟨S1600000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S1x128x128, .f32⟩
  | 54 => ⟨S128x128, .f32⟩
  | 55 => ⟨S100000x128, .f32⟩
  | 56 => ⟨S_, .i32⟩
  | 57 => ⟨S1700000, .i32⟩
  | 58 => ⟨S1700000, .i1⟩
  | 59 => ⟨S_, .i32⟩
  | 60 => ⟨S1700000, .i32⟩
  | 61 => ⟨S1700000, .i32⟩
  | 62 => ⟨S1700000, .i32⟩
  | 63 => ⟨S1700000x1, .i32⟩
  | 64 => ⟨S1700000x128, .f32⟩
  | 65 => ⟨S1700000x1, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S128, .f32⟩
  | 74 => ⟨S1x128, .f32⟩
  | 75 => ⟨S100000x128, .f32⟩
  | 76 => ⟨S100000x128, .f32⟩
  | 77 => ⟨S1x128, .f32⟩
  | 78 => ⟨S128, .f32⟩
  | 79 => ⟨S1x128, .f32⟩
  | 80 => ⟨S100000x128, .f32⟩
  | 81 => ⟨S100000x128, .f32⟩
  | 82 => ⟨S1x128, .f32⟩
  | 83 => ⟨S128, .f32⟩
  | 84 => ⟨S_, .f32⟩
  | 85 => ⟨S128, .f32⟩
  | 86 => ⟨S128, .f32⟩
  | 87 => ⟨S128, .f32⟩
  | 88 => ⟨S1x128, .f32⟩
  | 89 => ⟨S100000x128, .f32⟩
  | 90 => ⟨S100000x128, .f32⟩
  | 91 => ⟨S1x128, .f32⟩
  | 92 => ⟨S128, .f32⟩
  | 93 => ⟨S1x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S1x128x128, .f32⟩
  | 105 => ⟨S128x128, .f32⟩
  | 106 => ⟨S100000x128, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x128, .f32⟩
  | 116 => ⟨S1700000x1, .f32⟩
  | 117 => ⟨S1700000x128, .f32⟩
  | 118 => ⟨S1700000x128, .f32⟩
  | 119 => ⟨S_, .f32⟩
  | 120 => ⟨S100000x128, .f32⟩
  | 121 => ⟨S1700000x1, .i32⟩
  | 122 => ⟨S100000x128, .f32⟩
  | 123 => ⟨S1x128, .f32⟩
  | 124 => ⟨S128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S128, .f32⟩
  | 2 => ⟨S1x128, .f32⟩
  | 3 => ⟨S100000x128, .f32⟩
  | 4 => ⟨S100000x128, .f32⟩
  | 5 => ⟨S1x128, .f32⟩
  | 6 => ⟨S128, .f32⟩
  | 7 => ⟨S_, .f32⟩
  | 8 => ⟨S128, .f32⟩
  | 9 => ⟨S128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000x128, .f32⟩
  | 39 => ⟨S1700000x1, .f32⟩
  | 40 => ⟨S1700000x128, .f32⟩
  | 41 => ⟨S1700000x128, .f32⟩
  | 42 => ⟨S_, .f32⟩
  | 43 => ⟨S100000x128, .f32⟩
  | 44 => ⟨S1700000x1, .i32⟩
  | 45 => ⟨S100000x128, .f32⟩
  | 46 => ⟨S1x128, .f32⟩
  | 47 => ⟨S128, .f32⟩
  | 48 => ⟨S1x128, .f32⟩
  | 49 => ⟨S100000x128, .f32⟩
  | 50 => ⟨S100000x128, .f32⟩
  | 51 => ⟨S1x128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S128, .f32⟩
  | 58 => ⟨S_, .f32⟩
  | 59 => ⟨S128, .f32⟩
  | 60 => ⟨S128, .f32⟩
  | 61 => ⟨S128, .f32⟩
  | 62 => ⟨S1x128, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x2, .f32⟩
  | 79 => ⟨S1x2, .f32⟩
  | 80 => ⟨S100000x2, .f32⟩
  | 81 => ⟨S100000x2, .f32⟩
  | 82 => ⟨S_, .f32⟩
  | 83 => ⟨S100000, .f32⟩
  | 84 => ⟨S_, .f32⟩
  | 85 => ⟨S100000, .f32⟩
  | 86 => ⟨S100000, .f32⟩
  | 87 => ⟨S100000x1, .f32⟩
  | 88 => ⟨S100000x2, .f32⟩
  | 89 => ⟨S100000x2, .f32⟩
  | 90 => ⟨S100000x2, .f32⟩
  | 91 => ⟨S_, .f32⟩
  | 92 => ⟨S100000, .f32⟩
  | 93 => ⟨S100000x1, .f32⟩
  | 94 => ⟨S100000x1, .f32⟩
  | 95 => ⟨S100000x2, .f32⟩
  | 96 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_10 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_call1_cst : Ref sig .tc := ⟨.hbm, 101, rfl⟩
abbrev main_call1_v0 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_11 : Ref sig .tc := ⟨.hbm, 107, rfl⟩
abbrev main_v80 : Ref sig .tc := ⟨.hbm, 108, rfl⟩
abbrev main_v81 : Ref sig .tc := ⟨.hbm, 109, rfl⟩
abbrev main_c_12 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_13 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_14 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_call2_cst : Ref sig .tc := ⟨.hbm, 152, rfl⟩
abbrev main_call2_v0 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_c_15 : Ref sig .tc := ⟨.hbm, 158, rfl⟩
abbrev main_v125 : Ref sig .tc := ⟨.hbm, 159, rfl⟩
abbrev main_v126 : Ref sig .tc := ⟨.hbm, 160, rfl⟩
abbrev main_c_16 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_17 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_cst_18 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_call3_cst : Ref sig .tc := ⟨.hbm, 203, rfl⟩
abbrev main_call3_v0 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_call4_cst : Ref sig .tc := ⟨.hbm, 210, rfl⟩
abbrev main_call4_v0 : Ref sig .tc := ⟨.hbm, 211, rfl⟩
abbrev main_call4_cst_0 : Ref sig .tc := ⟨.hbm, 212, rfl⟩
abbrev main_call4_v1 : Ref sig .tc := ⟨.hbm, 213, rfl⟩
abbrev main_call4_v2 : Ref sig .tc := ⟨.hbm, 214, rfl⟩
abbrev main_call4_v3 : Ref sig .tc := ⟨.hbm, 215, rfl⟩
abbrev main_call4_v4 : Ref sig .tc := ⟨.hbm, 216, rfl⟩
abbrev main_call4_v5 : Ref sig .tc := ⟨.hbm, 217, rfl⟩
abbrev main_call4_v6 : Ref sig .tc := ⟨.hbm, 218, rfl⟩
abbrev main_call4_cst_1 : Ref sig .tc := ⟨.hbm, 219, rfl⟩
abbrev main_call4_v7 : Ref sig .tc := ⟨.hbm, 220, rfl⟩
abbrev main_call4_v8 : Ref sig .tc := ⟨.hbm, 221, rfl⟩
abbrev main_call4_v9 : Ref sig .tc := ⟨.hbm, 222, rfl⟩
abbrev main_call4_v10 : Ref sig .tc := ⟨.hbm, 223, rfl⟩
abbrev main_v171 : Ref sig .tc := ⟨.hbm, 224, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  slices_S3x128x128_S1x128x128_0_0_0 : S3x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.ResultRun.lean ====
/-
  The idealized kernel's run with its result named.

  The program is seven pipelined kernels among stretches of host operations. Its run ends with every unscoped
  buffer of a core at the last boundary's contents; read at the result buffer this names the result array, and read
  at the ten argument buffers it gives them back as launched.
-/
import proofs.«144072_j32246614458736_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents
    and the arguments end as launched. -/
theorem run_result : θ_run defs (onTc (τ := τ) (main (F := F))) ⟨m, fun _ => 0, ρ⟩ (fun r => ∀ c : Dev nD,
      r.2.mem ((c.tc : Thread nD τ).loc main_v129) = W16 m ρ c (Proc.devRef .tc main_v129)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v129 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c)⟩)

end Cert.KernelIdeal.Bridge

end
-- ==== Proof.Spec.lean ====
/-
  The layers of a graph convolution network, index by index, over the extended reals.

  A dense layer is a matrix product: entry (r, q) of h W is the sum over k of h (r, k) W (k, q). The normalisation that
  follows an aggregation adds a bias row, subtracts a mean row, multiplies by the reciprocal square root of a variance
  row plus a small constant and by a scale row, adds a shift row, and keeps the positive part; every row parameter is
  one row [1, N] shared by all M rows.
-/
import Idealize.ShloMosaic.Lib.ValueIdx
import Idealize.ShloMosaic.PureOps.Ideal.Laws

noncomputable section

open scoped BigOperators

namespace GcnLayers

open Idealize.ShloMosaic Idealize.ShloMosaic.ValueIdx

/-- The matrix product of an [M, K] array and a [K, N] array. -/
def mm {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0) k) * w (ix2 k (i 1))

theorem mm_apply {M K N : Nat} (a : (⟨2, ![M, K]⟩ : Shape).Idx → EReal) (w : (⟨2, ![K, N]⟩ : Shape).Idx → EReal)
    (r : Fin M) (q : Fin N) : mm a w (ix2 r q) = ∑ k : Fin K, a (ix2 r k) * w (ix2 k q) := rfl

/-- The small constant added to the variance: the f32 nearest to 1e-5. -/
abbrev eps : EReal := Ideal.ofBits .f32 0x3727C5AC#32

/-- Bias, normalisation by running statistics, scale, shift and positive part of an [M, N] array, the five
    parameters each one row. -/
def bnRelu {M N : Nat} (a : (⟨2, ![M, N]⟩ : Shape).Idx → EReal)
    (b mean var gamma beta : (⟨2, ![1, N]⟩ : Shape).Idx → EReal) : (⟨2, ![M, N]⟩ : Shape).Idx → EReal :=
  fun i => max ((((a i + b (ix2 (0 : Fin 1) (i 1))) - mean (ix2 (0 : Fin 1) (i 1)))
      * Ideal.rsqrt (var (ix2 (0 : Fin 1) (i 1)) + eps)) * gamma (ix2 (0 : Fin 1) (i 1)) + beta (ix2 (0 : Fin 1) (i 1)))
    (Ideal.ofBits .f32 0x00000000#32)

theorem bnRelu_apply {M N : Nat} (a : (⟨2, ![M, N]⟩ : Shape).Idx → EReal)
    (b mean var gamma beta : (⟨2, ![1, N]⟩ : Shape).Idx → EReal) (r : Fin M) (q : Fin N) :
    bnRelu a b mean var gamma beta (ix2 r q)
      = max ((((a (ix2 r q) + b (ix2 (0 : Fin 1) q)) - mean (ix2 (0 : Fin 1) q))
          * Ideal.rsqrt (var (ix2 (0 : Fin 1) q) + eps)) * gamma (ix2 (0 : Fin 1) q) + beta (ix2 (0 : Fin 1) q))
        (Ideal.ofBits .f32 0x00000000#32) := rfl

end GcnLayers

end
-- ==== Proof.LibPlainDot.lean ====
/-
  A plain matrix product read at an index.

  For the dimension numbers of an [M, K] by [K, N] product with no batch axis (`DotDims.plain`), the contraction index
  is one coordinate `k : Fin K`, the left operand is read at (r, k) and the right one at (k, q). So at the exact
  (extended-real) values both the matrix unit's product into a zero accumulator and the host's `dot_general` are, at
  output index (r, q), the plain sum over `k` of `lhs (r, k) * rhs (k, q)`.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {φ₁ φ₂ : FTy}

/-- The contraction shape of a plain product has one axis … -/
theorem contr_rank (M K N : Nat) : (DotDims.plain M K N).contr.rank = 1 := rfl
/-- … of extent `K`. -/
theorem contr_size (M K N : Nat) : (DotDims.plain M K N).contr.size ⟨0, by rw [contr_rank]; exact Nat.one_pos⟩ = K := rfl

/-- The contraction index of a plain product as its one coordinate. -/
abbrev kEquiv (M K N : Nat) : (DotDims.plain M K N).contr.Idx ≃ Fin K :=
  contrEquiv1 (DotDims.plain M K N) K (contr_rank M K N) (contr_size M K N)

/-- The left operand's index at output (r, q) and contraction coordinate k is (r, k). -/
theorem lhsIdx_eq {M K N : Nat} (r : Fin M) (q : Fin N) (k : Fin K) :
    (DotDims.plain M K N).lhsIdx (ix2 r q) ((kEquiv M K N).symm k) = ix2 r k := by
  have hk := contrEquiv1_symm_val (DotDims.plain M K N) K (contr_rank M K N) (contr_size M K N) k
  funext a
  refine Fin.ext ?_
  match a with
  | ⟨0, _⟩ => rfl
  | ⟨1, _⟩ => exact ((DotDims.plain M K N).lhsIdx_val_of_single rfl (ix2 r q) _).trans hk

/-- The right operand's index at output (r, q) and contraction coordinate k is (k, q). -/
theorem rhsIdx_eq {M K N : Nat} (r : Fin M) (q : Fin N) (k : Fin K) :
    (DotDims.plain M K N).rhsIdx (ix2 r q) ((kEquiv M K N).symm k) = ix2 k q := by
  have hk := contrEquiv1_symm_val (DotDims.plain M K N) K (contr_rank M K N) (contr_size M K N) k
  funext a
  refine Fin.ext ?_
  match a with
  | ⟨0, _⟩ => exact ((DotDims.plain M K N).rhsIdx_val_of_single rfl (ix2 r q) _).trans hk
  | ⟨1, _⟩ => rfl

/-- The matrix unit's product into a zero accumulator, at (r, q): the sum over k of lhs (r, k) * rhs (k, q). -/
theorem matmul_zero_apply {M K N : Nat} (prec : Option ContractPrecision)
    (lhs : FVec Ideal ⟨2, ![M, K]⟩ φ₁) (rhs : FVec Ideal ⟨2, ![K, N]⟩ φ₂) (r : Fin M) (q : Fin N) :
    FloatOps.matmul (DotDims.plain M K N) prec lhs rhs (constant ⟨2, ![M, N]⟩ .f32 0x00000000#32) (ix2 r q)
      = ∑ k : Fin K, lhs (ix2 r k) * rhs (ix2 k q) := by
  rw [Ideal.matmul_constant_zero_apply, ← Equiv.sum_comp (kEquiv M K N).symm]
  exact Finset.sum_congr rfl fun k _ => by rw [lhsIdx_eq, rhsIdx_eq]

/-- The host's `dot_general` of the same dimension numbers, at (r, q): the same sum. -/
theorem dotGeneral_apply {M K N : Nat} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral (DotDims.plain M K N) prec sched lhs rhs (ix2 r q)
      = ∑ k : Fin K, lhs (ix2 r k) * rhs (ix2 k q) := by
  rw [Ideal.dotGeneral_apply, ← Equiv.sum_comp (kEquiv M K N).symm]
  exact Finset.sum_congr rfl fun k _ => by rw [lhsIdx_eq, rhsIdx_eq]

end Idealize.ShloMosaic.PlainDot

end
-- ==== Proof.LibBiasRows.lean ====
/-
  A bias vector laid along every row of a matrix, in its two spellings.

  A host program broadcasts the vector [n] to one row [1, n] (along axis 1) and that row down m rows. A kernel receives
  the vector already cast to one row [1, n], casts it to the same shape once more, and broadcasts it down m rows. Both
  read, at (r, q), the vector at q; so the two m × n arrays are equal.
-/
import Idealize.ShloMosaic.Lib.ValueLayout
import Idealize.ShloMosaic.Lib.KernelVsHost

namespace Idealize.ShloMosaic.BiasRows

open Idealize.ShloMosaic Idealize.ShloMosaic.ValueIdx

variable {α : Type}

/-- The host's spelling at (r, q): the vector at q. -/
theorem hostRows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (q : Fin n) :
    broadcastInDim ⟨2, ![m, n]⟩ ![0, 1] h2 (broadcastInDim ⟨2, ![1, n]⟩ ![1] h1 b) (ix2 r q) = b (ix1 q) := by
  rw [broadcastInDim_oneRow_apply]
  refine broadcastInDim_apply ![1] h1 b (ix2 (0 : Fin 1) q) (ix1 q) ?_
  intro a
  match a with
  | ⟨0, _⟩ =>
    show q.val = if n = 1 then 0 else q.val
    split
    · have := q.isLt; omega
    · rfl

/-- The kernel's spelling at (r, q): the vector at q. -/
theorem kernelRows_apply {m n : Nat} (b : (⟨1, ![n]⟩ : Shape).Idx → α)
    (h0 : (⟨1, ![n]⟩ : Shape).ShapeCasts ⟨2, ![1, n]⟩) (h1 : (⟨2, ![1, n]⟩ : Shape).ShapeCasts ⟨2, ![1, n]⟩)
    (hb : (⟨2, ![1, n]⟩ : Shape).Broadcasts ⟨2, ![m, n]⟩) (r : Fin m) (q : Fin n) :
    broadcastTo ⟨2, ![m, n]⟩ (shapeCast ⟨2, ![1, n]⟩ (shapeCast ⟨2, ![1, n]⟩ b h0) h1) hb (ix2 r q) = b (ix1 q) := by
  rw [broadcastTo_1b_ab_apply, shapeCast_self, shapeCast_a_1a_apply]

/-- The two spellings are one m × n array. -/
theorem kernelRows_eq_hostRows {m n : Nat} (b : (⟨1, ![n]⟩ : Shape).Idx → α)
    (h0 : (⟨1, ![n]⟩ : Shape).ShapeCasts ⟨2, ![1, n]⟩) (h1 : (⟨2, ![1, n]⟩ : Shape).ShapeCasts ⟨2, ![1, n]⟩)
    (hb : (⟨2, ![1, n]⟩ : Shape).Broadcasts ⟨2, ![m, n]⟩)
    (g1 : (⟨1, ![n]⟩ : Shape).BroadcastsInDim ⟨2, ![1, n]⟩ ![1])
    (g2 : (⟨2, ![1, n]⟩ : Shape).BroadcastsInDim ⟨2, ![m, n]⟩ ![0, 1]) :
    broadcastTo ⟨2, ![m, n]⟩ (shapeCast ⟨2, ![1, n]⟩ (shapeCast ⟨2, ![1, n]⟩ b h0) h1) hb
      = broadcastInDim ⟨2, ![m, n]⟩ ![0, 1] g2 (broadcastInDim ⟨2, ![1, n]⟩ ![1] g1 b) := by
  funext j
  obtain ⟨r, q, rfl⟩ : ∃ (r : Fin m) (q : Fin n), j = ix2 r q := ⟨j 0, j 1, eq_ix2 j⟩
  rw [kernelRows_apply, hostRows_apply]

end Idealize.ShloMosaic.BiasRows
-- ==== Proof.LibRowMax.lean ====
/-
  The maximum of each row of a matrix, in the two spellings a kernel and a host program give it.

  A kernel takes the row maximum of an [n, d] array by a lane reduction along axis 1 whose accumulator starts at −∞;
  a host program takes it by a reduce with a maximum body along axis 1 from an initial value. Read at row r, both are
  the fold of max over the d entries of that row from the starting value, so both can be stated with one closed form.
-/
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Idealize.ShloMosaic.RowMax

open Idealize.ShloMosaic Idealize.ShloMosaic.ValueIdx

variable {n d : Nat}

/-- The maximum of row r of an [n, d] array over the extended reals, starting from the value init. -/
def rowMaxFrom (init : EReal) (Y : (⟨2, ![n, d]⟩ : Shape).Idx → EReal) (r : Fin n) : EReal :=
  (Finset.univ : Finset (Fin d)).fold max init (fun q => Y (ix2 r q))

/-- The maximum of row r starting from −∞ (the f32 pattern of minus infinity). -/
def rowMax (Y : (⟨2, ![n, d]⟩ : Shape).Idx → EReal) (r : Fin n) : EReal :=
  rowMaxFrom (Ideal.ofBits .f32 0xFF800000#32) Y r

/-- The reduced index r with column k put back is (r, k). -/
theorem lift_ix1_axis1 (h : (⟨2, ![n, d]⟩ : Shape).Reduces [1] (⟨1, ![n]⟩ : Shape)) (r : Fin n)
    (k : Fin ((⟨2, ![n, d]⟩ : Shape).size 1)) : h.lift (ix1 r) k = ix2 r (⟨k.val, k.isLt⟩ : Fin d) := by
  funext c; apply Fin.ext
  fin_cases c <;> rfl

/-- A kernel's lane maximum along axis 1 from −∞, read at row r, is that row's maximum. -/
theorem multiReduction_maximumf_rows (src : FVec Ideal ⟨2, ![n, d]⟩ .f32)
    (h : (⟨2, ![n, d]⟩ : Shape).Reduces [1] (⟨1, ![n]⟩ : Shape)) (hφ : FKind.Formats .f32)
    (hacc : (0xFF800000#32 : BitVec 32) = FKind.maximumf.neutral .f32 hφ) (r : Fin n) :
    multiReduction .maximumf [1] (⟨1, ![n]⟩ : Shape) src 0xFF800000#32 h hφ hacc (ix1 r) = rowMax src r := by
  rw [Ideal.multiReduction_maximumf_single src _ h hφ hacc (ix1 r)]
  have hf : (src ∘ h.lift (ix1 r)) = fun k : Fin d => src (ix2 r k) :=
    funext fun k => congrArg src (lift_ix1_axis1 h r k)
  exact congrArg (fun f => Finset.fold max (Ideal.ofBits .f32 0xFF800000#32) f (Finset.univ : Finset (Fin d))) hf

/-- The same with the accumulator fact spelt as a printed kernel carries it: the pattern equal to itself. -/
theorem multiReduction_maximumf_rows_lit (src : FVec Ideal ⟨2, ![n, d]⟩ .f32)
    (h : (⟨2, ![n, d]⟩ : Shape).Reduces [1] (⟨1, ![n]⟩ : Shape)) (hφ : FKind.Formats .f32)
    (hacc : (0xFF800000#32 : BitVec 32) = 0xFF800000#32) (r : Fin n) :
    multiReduction .maximumf [1] (⟨1, ![n]⟩ : Shape) src 0xFF800000#32 h hφ hacc (ix1 r) = rowMax src r :=
  multiReduction_maximumf_rows src h hφ hacc r

/-- A host reduce with a maximum body along axis 1 from the initial value v, read at row r, is that row's maximum
    starting from v's one entry. -/
theorem hostReduce_maximumf_rows_from {u : Shape} (Y : FVec Ideal ⟨2, ![n, d]⟩ .f32) (v : u.Idx → Ideal .f32)
    (h' : (⟨2, ![n, d]⟩ : Shape).ReducesTo [1] (⟨1, ![n]⟩ : Shape))
    (h : (⟨2, ![n, d]⟩ : Shape).Reduces [1] (⟨1, ![n]⟩ : Shape)) (hu : 0 < u.numel) (r : Fin n) :
    Host.reduce FloatOps.maximumf Y v h' hu (ix1 r) = rowMaxFrom (v (Shape.Idx.first hu)) Y r := by
  rw [Host.reduce_eq_fold_single FloatOps.maximumf Y v h' h hu]
  have hf : (Y ∘ h.lift (ix1 r)) = fun k : Fin d => Y (ix2 r k) :=
    funext fun k => congrArg Y (lift_ix1_axis1 h r k)
  exact congrArg (fun f => Finset.fold max (v (Shape.Idx.first hu)) f (Finset.univ : Finset (Fin d))) hf

/-- With the −∞ constant as initial value the host's row maximum is the kernel's: one closed form for both. -/
theorem hostReduce_maximumf_rows (Y : FVec Ideal ⟨2, ![n, d]⟩ .f32)
    (h' : (⟨2, ![n, d]⟩ : Shape).ReducesTo [1] (⟨1, ![n]⟩ : Shape))
    (h : (⟨2, ![n, d]⟩ : Shape).Reduces [1] (⟨1, ![n]⟩ : Shape)) (hu : 0 < (⟨0, ![]⟩ : Shape).numel) (r : Fin n) :
    Host.reduce FloatOps.maximumf Y (constant (F := Ideal) (⟨0, ![]⟩ : Shape) .f32 0xFF800000#32) h' hu (ix1 r)
      = rowMax Y r :=
  hostReduce_maximumf_rows_from Y _ h' h hu r

/-! ## A row statistic kept as a column, and a lane sum along a row -/

/-- A kernel's lane sum along axis 1 from zero, read at row r, is the sum of that row's entries. -/
theorem multiReduction_add_rows (src : FVec Ideal ⟨2, ![n, d]⟩ .f32)
    (h : (⟨2, ![n, d]⟩ : Shape).Reduces [1] (⟨1, ![n]⟩ : Shape)) (hφ : FKind.Formats .f32)
    (hacc : (0x00000000#32 : BitVec 32) = FKind.add.neutral .f32 hφ) (r : Fin n) :
    multiReduction .add [1] (⟨1, ![n]⟩ : Shape) src 0x00000000#32 h hφ hacc (ix1 r) = ∑ q : Fin d, src (ix2 r q) := by
  rw [Ideal.multiReduction_add_single src _ h hφ hacc (ix1 r)]
  exact Finset.sum_congr rfl fun k _ => congrArg src (lift_ix1_axis1 h r k)

/-- The same with the accumulator fact spelt as a printed kernel carries it: the pattern equal to itself. -/
theorem multiReduction_add_rows_lit (src : FVec Ideal ⟨2, ![n, d]⟩ .f32)
    (h : (⟨2, ![n, d]⟩ : Shape).Reduces [1] (⟨1, ![n]⟩ : Shape)) (hφ : FKind.Formats .f32)
    (hacc : (0x00000000#32 : BitVec 32) = 0x00000000#32) (r : Fin n) :
    multiReduction .add [1] (⟨1, ![n]⟩ : Shape) src 0x00000000#32 h hφ hacc (ix1 r) = ∑ q : Fin d, src (ix2 r q) :=
  multiReduction_add_rows src h hφ hacc r

/-- An [a] array cast to a column [a, 1] reads, at (p, u), the operand at p. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] broadcast to [a, b] reads, at (p, q), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A one-cell array broadcast to [a, b] reads, at every (p, q), the cell. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- A per-row value kept as a column and broadcast back along the row reads, at (p, q), the value of row p. -/
theorem keptCol_broadcast_apply {α : Type} {a b : ℕ} (z : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (q : Fin b) :
    broadcastTo ⟨2, ![a, b]⟩ (shapeCast ⟨2, ![a, 1]⟩ z h1) h2 (ix2 p q) = z (ix1 p) := by
  rw [broadcastTo_a1_ab_apply, shapeCast_a_a1_apply]

/-! ## A bias row added to every row, and the log-softmax of a row -/

/-- A bias row added to every row of a matrix. -/
def biased (x : (⟨2, ![n, d]⟩ : Shape).Idx → EReal) (b : (⟨2, ![1, d]⟩ : Shape).Idx → EReal) :
    (⟨2, ![n, d]⟩ : Shape).Idx → EReal := fun i => x i + b (ix2 (0 : Fin 1) (i 1))

theorem biased_apply (x : (⟨2, ![n, d]⟩ : Shape).Idx → EReal) (b : (⟨2, ![1, d]⟩ : Shape).Idx → EReal) (r : Fin n)
    (q : Fin d) : biased x b (ix2 r q) = x (ix2 r q) + b (ix2 (0 : Fin 1) q) := rfl

/-- The log-softmax of row r at column q: (y − M) − log Σ exp(y − M), M the row's maximum from −∞. -/
def logSoftmaxRow (Y : (⟨2, ![n, d]⟩ : Shape).Idx → EReal) (r : Fin n) (q : Fin d) : EReal :=
  (Y (ix2 r q) - rowMax Y r) - Ideal.log (∑ q' : Fin d, Ideal.exp (Y (ix2 r q') - rowMax Y r))

/-- A row's maximum depends on that row only. -/
theorem rowMaxFrom_congr {m : Nat} (init : EReal) (Y : (⟨2, ![n, d]⟩ : Shape).Idx → EReal)
    (Z : (⟨2, ![m, d]⟩ : Shape).Idx → EReal) (p : Fin n) (r : Fin m) (h : ∀ q : Fin d, Y (ix2 p q) = Z (ix2 r q)) :
    rowMaxFrom init Y p = rowMaxFrom init Z r :=
  congrArg (fun f => Finset.fold max init f (Finset.univ : Finset (Fin d))) (funext h)

/-- A row's log-softmax depends on that row only. -/
theorem logSoftmaxRow_congr {m : Nat} (Y : (⟨2, ![n, d]⟩ : Shape).Idx → EReal)
    (Z : (⟨2, ![m, d]⟩ : Shape).Idx → EReal) (p : Fin n) (r : Fin m) (h : ∀ q : Fin d, Y (ix2 p q) = Z (ix2 r q))
    (q : Fin d) : logSoftmaxRow Y p q = logSoftmaxRow Z r q := by
  have hM : rowMax Y p = rowMax Z r := rowMaxFrom_congr _ Y Z p r h
  unfold logSoftmaxRow
  rw [hM, h q]
  exact congrArg (fun s => Z (ix2 r q) - rowMax Z r - Ideal.log s) (Finset.sum_congr rfl fun q' _ => by rw [h q'])

end Idealize.ShloMosaic.RowMax

end
-- ==== Proof.HostForms.lean ====
/-
  The host's spellings of the network's layers, read as the layers' index-by-index functions.

  A host program lays a parameter vector [N] along the rows of an [M, N] array by two broadcasts, [N] → [1, N] → [M, N];
  its normalisation is then the pointwise chain over such arrays, and reads at (r, q) what the layer function reads with
  the vectors recast as one-row arrays. Its log-softmax takes a row maximum and a row sum by reductions along axis 1,
  keeps each as a column [M] → [M, 1] → [M, N], and reads at (r, q) the log-softmax of row r at column q.
-/
import Idealize.ShloMosaic.Lib.ValueIdx
import Idealize.ShloMosaic.Lib.Pipeline.Value
import Idealize.ShloMosaic.Lib.ValueLayout
import Idealize.ShloMosaic.PureOps.Ideal.Laws
import proofs.«144072_j32246614458736_1_alg».proof.Proof.Spec
import proofs.«144072_j32246614458736_1_alg».proof.Proof.LibPlainDot
import proofs.«144072_j32246614458736_1_alg».proof.Proof.LibBiasRows
import proofs.«144072_j32246614458736_1_alg».proof.Proof.LibRowMax

noncomputable section

open scoped BigOperators

namespace GcnLayers

open Idealize.ShloMosaic Idealize.ShloMosaic.ValueIdx

/-- A scalar constant broadcast to any shape reads the constant's value everywhere. -/
theorem splat_apply {t : Shape} (h : (⟨0, ![]⟩ : Shape).BroadcastsInDim t ![]) (b : BitVec 32) (i : t.Idx) :
    broadcastInDim t ![] h (constant (F := Ideal) (⟨0, ![]⟩ : Shape) .f32 b) i = Ideal.ofBits .f32 b :=
  (broadcastInDim_apply ![] h (constant (F := Ideal) (⟨0, ![]⟩ : Shape) .f32 b) i (fun a => a.elim0) (fun a => a.elim0)).trans rfl

theorem hostRsqrt_apply {s : Shape} (x : FVec Ideal s .f32) (i : s.Idx) : Host.rsqrt x i = Ideal.rsqrt (x i) := rfl
theorem hostExp_apply {s : Shape} (x : FVec Ideal s .f32) (i : s.Idx) : Host.exp x i = Ideal.exp (x i) := rfl
theorem hostLog_apply {s : Shape} (x : FVec Ideal s .f32) (i : s.Idx) : Host.log x i = Ideal.log (x i) := rfl

/-- The host's matrix product of the plain dimension numbers is the matrix product. -/
theorem hostDot_eq {M K N : Nat} (prec : Option ContractPrecision) (a : FVec Ideal ⟨2, ![M, K]⟩ .f32)
    (w : FVec Ideal ⟨2, ![K, N]⟩ .f32) : Host.dotGeneral (DotDims.plain M K N) prec a w = mm a w := by
  funext j
  obtain ⟨r, q, rfl⟩ : ∃ (r : Fin M) (q : Fin N), j = ix2 r q := ⟨j 0, j 1, eq_ix2 j⟩
  simp only [Host.dotGeneral]
  exact PlainDot.dotGeneral_apply prec _ a w r q

/-- The host's normalisation chain over row-broadcast parameter vectors is the layer function of the vectors recast
    as one-row arrays. -/
theorem hostBn_eq {M N : Nat} (a : FVec Ideal ⟨2, ![M, N]⟩ .f32) (bv mv vv gv sv : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (he : (⟨0, ![]⟩ : Shape).BroadcastsInDim ⟨1, ![N]⟩ ![])
    (hz : (⟨0, ![]⟩ : Shape).BroadcastsInDim ⟨2, ![M, N]⟩ ![])
    (hc : (⟨1, ![N]⟩ : Shape).ShapeCasts ⟨2, ![1, N]⟩) :
    maximumf (addf (mulf (mulf (subf (addf a
        (broadcastInDim ⟨2, ![M, N]⟩ ![0, 1] h2 (broadcastInDim ⟨2, ![1, N]⟩ ![1] h1 bv)))
        (broadcastInDim ⟨2, ![M, N]⟩ ![0, 1] h2 (broadcastInDim ⟨2, ![1, N]⟩ ![1] h1 mv)))
        (broadcastInDim ⟨2, ![M, N]⟩ ![0, 1] h2 (broadcastInDim ⟨2, ![1, N]⟩ ![1] h1
          (Host.rsqrt (addf vv (broadcastInDim ⟨1, ![N]⟩ ![] he (constant (F := Ideal) (⟨0, ![]⟩ : Shape) .f32 0x3727C5AC#32)))))))
        (broadcastInDim ⟨2, ![M, N]⟩ ![0, 1] h2 (broadcastInDim ⟨2, ![1, N]⟩ ![1] h1 gv)))
        (broadcastInDim ⟨2, ![M, N]⟩ ![0, 1] h2 (broadcastInDim ⟨2, ![1, N]⟩ ![1] h1 sv)))
      (broadcastInDim ⟨2, ![M, N]⟩ ![] hz (constant (F := Ideal) (⟨0, ![]⟩ : Shape) .f32 0x00000000#32))
    = bnRelu a (shapeCast ⟨2, ![1, N]⟩ bv hc) (shapeCast ⟨2, ![1, N]⟩ mv hc) (shapeCast ⟨2, ![1, N]⟩ vv hc)
        (shapeCast ⟨2, ![1, N]⟩ gv hc) (shapeCast ⟨2, ![1, N]⟩ sv hc) := by
  funext j
  obtain ⟨r, q, rfl⟩ : ∃ (r : Fin M) (q : Fin N), j = ix2 r q := ⟨j 0, j 1, eq_ix2 j⟩
  rw [bnRelu_apply]
  simp only [shapeCast_a_1a_apply, maximumf_apply, addf_apply, mulf_apply, subf_apply]
  rw [BiasRows.hostRows_apply bv h1 h2 r q, BiasRows.hostRows_apply mv h1 h2 r q, BiasRows.hostRows_apply gv h1 h2 r q,
    BiasRows.hostRows_apply sv h1 h2 r q, BiasRows.hostRows_apply _ h1 h2 r q, hostRsqrt_apply, addf_apply, splat_apply he,
    splat_apply hz]

/-- A per-row value kept as a column by the host, at (p, u). -/
theorem hostCol_apply {α : Type} {M : Nat} (v : (⟨1, ![M]⟩ : Shape).Idx → α)
    (hc : (⟨1, ![M]⟩ : Shape).BroadcastsInDim ⟨2, ![M, 1]⟩ ![0]) (p : Fin M) (u : Fin 1) :
    broadcastInDim ⟨2, ![M, 1]⟩ ![0] hc v (ix2 p u) = v (ix1 p) := by
  refine broadcastInDim_apply ![0] hc v (ix2 p u) (ix1 p) fun a => ?_
  match a with
  | ⟨0, _⟩ =>
    show p.val = if M = 1 then 0 else p.val
    split
    · have := p.isLt; omega
    · rfl

/-- A column broadcast back along its rows by the host, at (p, q). -/
theorem hostColRows_apply {α : Type} {M N : Nat} (w : (⟨2, ![M, 1]⟩ : Shape).Idx → α)
    (hd : (⟨2, ![M, 1]⟩ : Shape).BroadcastsInDim ⟨2, ![M, N]⟩ ![0, 1]) (p : Fin M) (q : Fin N) :
    broadcastInDim ⟨2, ![M, N]⟩ ![0, 1] hd w (ix2 p q) = w (ix2 p (0 : Fin 1)) := by
  refine broadcastInDim_apply ![0, 1] hd w (ix2 p q) (ix2 p (0 : Fin 1)) fun a => ?_
  match a with
  | ⟨0, _⟩ =>
    show p.val = if M = 1 then 0 else p.val
    split
    · have := p.isLt; omega
    · rfl
  | ⟨1, _⟩ => rfl

/-- The host's sum along axis 1 from zero, at row r. -/
theorem hostReduceAdd_rows {n d : Nat} (x : FVec Ideal ⟨2, ![n, d]⟩ .f32)
    (h' : (⟨2, ![n, d]⟩ : Shape).ReducesTo [1] (⟨1, ![n]⟩ : Shape))
    (h : (⟨2, ![n, d]⟩ : Shape).Reduces [1] (⟨1, ![n]⟩ : Shape)) (hu : 0 < (⟨0, ![]⟩ : Shape).numel) (r : Fin n) :
    Host.reduceAdd x (constant (F := Ideal) (⟨0, ![]⟩ : Shape) .f32 0x00000000#32) h' hu (ix1 r)
      = ∑ q : Fin d, x (ix2 r q) := by
  show Ideal.hostReduceAdd h' x (Ideal.ofBits .f32 0x00000000#32) (ix1 r) = _
  rw [Ideal.hostReduceAdd_single h' h, Ideal.ofBits_zero_f32, zero_add]
  exact Finset.sum_congr rfl fun k _ => congrArg x (RowMax.lift_ix1_axis1 h r k)

theorem negInf_f32 : Ideal.ofBits .f32 0xFF800000#32 = ⊥ := by simp [Ideal.ofBits, Ideal.ieee]

/-- The host's log-softmax along axis 1 is the log-softmax of each row. -/
theorem hostLogSoftmax_apply {M N : Nat} (Y : FVec Ideal ⟨2, ![M, N]⟩ .f32)
    (hR : (⟨2, ![M, N]⟩ : Shape).ReducesTo [1] (⟨1, ![M]⟩ : Shape))
    (hr : (⟨2, ![M, N]⟩ : Shape).Reduces [1] (⟨1, ![M]⟩ : Shape)) (hu : 0 < (⟨0, ![]⟩ : Shape).numel)
    (hb : (⟨0, ![]⟩ : Shape).BroadcastsInDim ⟨1, ![M]⟩ ![])
    (hc : (⟨1, ![M]⟩ : Shape).BroadcastsInDim ⟨2, ![M, 1]⟩ ![0])
    (hd : (⟨2, ![M, 1]⟩ : Shape).BroadcastsInDim ⟨2, ![M, N]⟩ ![0, 1]) (r : Fin M) (q : Fin N) :
    subf (subf Y (broadcastInDim ⟨2, ![M, N]⟩ ![0, 1] hd (broadcastInDim ⟨2, ![M, 1]⟩ ![0] hc
        (maximumf (broadcastInDim ⟨1, ![M]⟩ ![] hb (constant (F := Ideal) (⟨0, ![]⟩ : Shape) .f32 0xFF800000#32))
          (Host.reduce FloatOps.maximumf Y (constant (F := Ideal) (⟨0, ![]⟩ : Shape) .f32 0xFF800000#32) hR hu)))))
      (broadcastInDim ⟨2, ![M, N]⟩ ![0, 1] hd (Host.log (broadcastInDim ⟨2, ![M, 1]⟩ ![0] hc
        (Host.reduceAdd (Host.exp (subf Y (broadcastInDim ⟨2, ![M, N]⟩ ![0, 1] hd (broadcastInDim ⟨2, ![M, 1]⟩ ![0] hc
          (maximumf (broadcastInDim ⟨1, ![M]⟩ ![] hb (constant (F := Ideal) (⟨0, ![]⟩ : Shape) .f32 0xFF800000#32))
            (Host.reduce FloatOps.maximumf Y (constant (F := Ideal) (⟨0, ![]⟩ : Shape) .f32 0xFF800000#32) hR hu))))))
          (constant (F := Ideal) (⟨0, ![]⟩ : Shape) .f32 0x00000000#32) hR hu)))) (ix2 r q)
    = RowMax.logSoftmaxRow Y r q := by
  have hmax : ∀ p : Fin M,
      maximumf (broadcastInDim ⟨1, ![M]⟩ ![] hb (constant (F := Ideal) (⟨0, ![]⟩ : Shape) .f32 0xFF800000#32))
        (Host.reduce FloatOps.maximumf Y (constant (F := Ideal) (⟨0, ![]⟩ : Shape) .f32 0xFF800000#32) hR hu) (ix1 p)
        = RowMax.rowMax Y p := fun p => by
    rw [maximumf_apply, splat_apply, RowMax.hostReduce_maximumf_rows Y hR hr hu p, negInf_f32]
    exact max_eq_right bot_le
  have hsh : ∀ (p : Fin M) (c : Fin N),
      subf Y (broadcastInDim ⟨2, ![M, N]⟩ ![0, 1] hd (broadcastInDim ⟨2, ![M, 1]⟩ ![0] hc
        (maximumf (broadcastInDim ⟨1, ![M]⟩ ![] hb (constant (F := Ideal) (⟨0, ![]⟩ : Shape) .f32 0xFF800000#32))
          (Host.reduce FloatOps.maximumf Y (constant (F := Ideal) (⟨0, ![]⟩ : Shape) .f32 0xFF800000#32) hR hu)))) (ix2 p c)
        = Y (ix2 p c) - RowMax.rowMax Y p := fun p c => by
    rw [subf_apply, hostColRows_apply, hostCol_apply, hmax]
  rw [subf_apply, hsh, hostColRows_apply, hostLog_apply, hostCol_apply, hostReduceAdd_rows _ hR hr hu r]
  unfold RowMax.logSoftmaxRow
  refine congrArg (fun s => Y (ix2 r q) - RowMax.rowMax Y r - Ideal.log s) (Finset.sum_congr rfl fun c _ => ?_)
  rw [hostExp_apply, hsh]

end GcnLayers

end
-- ==== Proof.RefStages.lean ====
/-
  The reference program's stages as the network's layers.

  Each dense stage of the reference is a host matrix product, so it is the matrix product of its operands; each
  normalisation stage is the host's pointwise chain over row-broadcast parameter vectors, so it is the layer function
  of the aggregated array and the vectors recast as one-row arrays; and the last stage is the host's log-softmax of
  the biased logits, so at (r, q) it is the log-softmax of row r of the biased product at column q.
-/
import proofs.«144072_j32246614458736_1_alg».proof.Proof.RefRead
import proofs.«144072_j32246614458736_1_alg».proof.Proof.HostForms

set_option maxRecDepth 16384

noncomputable section

namespace Cert.ReferenceIdeal.Stages

open Cert.ReferenceIdeal Cert.ReferenceIdeal.Gen Cert.ReferenceIdeal.Read
open Idealize.ShloMosaic Idealize.ShloMosaic.ValueIdx
open scoped BigOperators

variable (x0 : (⟨S100000x128, .f32⟩ : BufTy).Contents (Elt Ideal)) (x1 : (⟨S2x1600000, .i32⟩ : BufTy).Contents (Elt Ideal))
  (x2 : (⟨S3x128x128, .f32⟩ : BufTy).Contents (Elt Ideal)) (x3 x4 x5 x6 x7 : (⟨S3x128, .f32⟩ : BufTy).Contents (Elt Ideal))
  (x8 : (⟨S128x2, .f32⟩ : BufTy).Contents (Elt Ideal)) (x9 : (⟨S2, .f32⟩ : BufTy).Contents (Elt Ideal))

/-- Dense stage 0. -/
theorem dot0 : val_main_v34 (F := Ideal) x0 x2
    = GcnLayers.mm (M := 100000) (K := 128) (N := 128) x0 (val_main_v33 (F := Ideal) x2) :=
  GcnLayers.hostDot_eq none x0 (val_main_v33 (F := Ideal) x2)

/-- Dense stage 1. -/
theorem dot1 : val_main_v79 (F := Ideal) x0 x1 x2 x3 x4 x5 x6 x7
    = GcnLayers.mm (M := 100000) (K := 128) (N := 128) (val_main_v76 (F := Ideal) x0 x1 x2 x3 x4 x5 x6 x7) (val_main_v78 (F := Ideal) x2) :=
  GcnLayers.hostDot_eq none (val_main_v76 (F := Ideal) x0 x1 x2 x3 x4 x5 x6 x7) (val_main_v78 (F := Ideal) x2)

/-- Dense stage 2. -/
theorem dot2 : val_main_v124 (F := Ideal) x0 x1 x2 x3 x4 x5 x6 x7
    = GcnLayers.mm (M := 100000) (K := 128) (N := 128) (val_main_v121 (F := Ideal) x0 x1 x2 x3 x4 x5 x6 x7) (val_main_v123 (F := Ideal) x2) :=
  GcnLayers.hostDot_eq none (val_main_v121 (F := Ideal) x0 x1 x2 x3 x4 x5 x6 x7) (val_main_v123 (F := Ideal) x2)

/-- bn0: the reference's normalisation chain is the layer function of the aggregated array and the five parameter
    vectors recast as one-row arrays. -/
theorem bn0 (hc : (⟨1, ![128]⟩ : Shape).ShapeCasts ⟨2, ![1, 128]⟩) :
    val_main_v76 (F := Ideal) x0 x1 x2 x3 x4 x5 x6 x7
      = GcnLayers.bnRelu (M := 100000) (N := 128) (val_main_v47 (F := Ideal) x0 x1 x2)
          (shapeCast ⟨2, ![1, 128]⟩ (val_main_v49 (F := Ideal) x3) hc) (shapeCast ⟨2, ![1, 128]⟩ (val_main_v54 (F := Ideal) x6) hc)
          (shapeCast ⟨2, ![1, 128]⟩ (val_main_v59 (F := Ideal) x7) hc) (shapeCast ⟨2, ![1, 128]⟩ (val_main_v67 (F := Ideal) x4) hc)
          (shapeCast ⟨2, ![1, 128]⟩ (val_main_v72 (F := Ideal) x5) hc) :=
  GcnLayers.hostBn_eq (val_main_v47 (F := Ideal) x0 x1 x2) (val_main_v49 (F := Ideal) x3) (val_main_v54 (F := Ideal) x6) (val_main_v59 (F := Ideal) x7)
    (val_main_v67 (F := Ideal) x4) (val_main_v72 (F := Ideal) x5) bcast_S128_S1x128_1 bcast_S1x128_S100000x128_0_1 bcast_S_S128
    bcast_S_S100000x128 hc

/-- bn1: the reference's normalisation chain is the layer function of the aggregated array and the five parameter
    vectors recast as one-row arrays. -/
theorem bn1 (hc : (⟨1, ![128]⟩ : Shape).ShapeCasts ⟨2, ![1, 128]⟩) :
    val_main_v121 (F := Ideal) x0 x1 x2 x3 x4 x5 x6 x7
      = GcnLayers.bnRelu (M := 100000) (N := 128) (val_main_v92 (F := Ideal) x0 x1 x2 x3 x4 x5 x6 x7)
          (shapeCast ⟨2, ![1, 128]⟩ (val_main_v94 (F := Ideal) x3) hc) (shapeCast ⟨2, ![1, 128]⟩ (val_main_v99 (F := Ideal) x6) hc)
          (shapeCast ⟨2, ![1, 128]⟩ (val_main_v104 (F := Ideal) x7) hc) (shapeCast ⟨2, ![1, 128]⟩ (val_main_v112 (F := Ideal) x4) hc)
          (shapeCast ⟨2, ![1, 128]⟩ (val_main_v117 (F := Ideal) x5) hc) :=
  GcnLayers.hostBn_eq (val_main_v92 (F := Ideal) x0 x1 x2 x3 x4 x5 x6 x7) (val_main_v94 (F := Ideal) x3) (val_main_v99 (F := Ideal) x6) (val_main_v104 (F := Ideal) x7)
    (val_main_v112 (F := Ideal) x4) (val_main_v117 (F := Ideal) x5) bcast_S128_S1x128_1 bcast_S1x128_S100000x128_0_1 bcast_S_S128
    bcast_S_S100000x128 hc

/-- bn2: the reference's normalisation chain is the layer function of the aggregated array and the five parameter
    vectors recast as one-row arrays. -/
theorem bn2 (hc : (⟨1, ![128]⟩ : Shape).ShapeCasts ⟨2, ![1, 128]⟩) :
    val_main_v166 (F := Ideal) x0 x1 x2 x3 x4 x5 x6 x7
      = GcnLayers.bnRelu (M := 100000) (N := 128) (val_main_v137 (F := Ideal) x0 x1 x2 x3 x4 x5 x6 x7)
          (shapeCast ⟨2, ![1, 128]⟩ (val_main_v139 (F := Ideal) x3) hc) (shapeCast ⟨2, ![1, 128]⟩ (val_main_v144 (F := Ideal) x6) hc)
          (shapeCast ⟨2, ![1, 128]⟩ (val_main_v149 (F := Ideal) x7) hc) (shapeCast ⟨2, ![1, 128]⟩ (val_main_v157 (F := Ideal) x4) hc)
          (shapeCast ⟨2, ![1, 128]⟩ (val_main_v162 (F := Ideal) x5) hc) :=
  GcnLayers.hostBn_eq (val_main_v137 (F := Ideal) x0 x1 x2 x3 x4 x5 x6 x7) (val_main_v139 (F := Ideal) x3) (val_main_v144 (F := Ideal) x6) (val_main_v149 (F := Ideal) x7)
    (val_main_v157 (F := Ideal) x4) (val_main_v162 (F := Ideal) x5) bcast_S128_S1x128_1 bcast_S1x128_S100000x128_0_1 bcast_S_S128
    bcast_S_S100000x128 hc

/-- The biased logits at (r, q): the product of the last activations and the classifier weights plus the bias. -/
theorem logits_apply (hc : (⟨1, ![2]⟩ : Shape).ShapeCasts ⟨2, ![1, 2]⟩) (r : Fin 100000) (q : Fin 2) :
    val_main_v170 (F := Ideal) x0 x1 x2 x3 x4 x5 x6 x7 x8 x9 (ix2 r q)
      = RowMax.biased (GcnLayers.mm (M := 100000) (K := 128) (N := 2) (val_main_v166 (F := Ideal) x0 x1 x2 x3 x4 x5 x6 x7) x8)
          (shapeCast ⟨2, ![1, 2]⟩ x9 hc) (ix2 r q) := by
  rw [RowMax.biased_apply, shapeCast_a_1a_apply, val_main_v170_apply]
  show val_main_v167 (F := Ideal) x0 x1 x2 x3 x4 x5 x6 x7 x8 (ix2 r q) + val_main_v169 (F := Ideal) x9 (ix2 r q) = _
  refine congrArg₂ (· + ·) ?_ ?_
  · exact congrFun (GcnLayers.hostDot_eq none (val_main_v166 (F := Ideal) x0 x1 x2 x3 x4 x5 x6 x7) x8) (ix2 r q)
  · exact BiasRows.hostRows_apply x9 bcast_S2_S1x2_1 bcast_S1x2_S100000x2_0_1 r q

/-- The reference's result at (r, q): the log-softmax of row r of the biased logits at column q. -/
theorem result_apply (hc : (⟨1, ![2]⟩ : Shape).ShapeCasts ⟨2, ![1, 2]⟩) (r : Fin 100000) (q : Fin 2) :
    val_main_v171 (F := Ideal) x0 x1 x2 x3 x4 x5 x6 x7 x8 x9 (ix2 r q)
      = RowMax.logSoftmaxRow (RowMax.biased (GcnLayers.mm (M := 100000) (K := 128) (N := 2)
          (val_main_v166 (F := Ideal) x0 x1 x2 x3 x4 x5 x6 x7) x8) (shapeCast ⟨2, ![1, 2]⟩ x9 hc)) r q :=
  (GcnLayers.hostLogSoftmax_apply (val_main_v170 (F := Ideal) x0 x1 x2 x3 x4 x5 x6 x7 x8 x9) reducesTo_S100000x2_S100000_d1 (by decide) h_S_
      bcast_S_S100000 bcast_S100000_S100000x1_0 bcast_S100000x1_S100000x2_0_1 r q).trans
    (RowMax.logSoftmaxRow_congr _ _ r r (fun q' => logits_apply x0 x1 x2 x3 x4 x5 x6 x7 x8 x9 hc r q') q)

end Cert.ReferenceIdeal.Stages

end
-- ==== Proof.RegionMM0.lean ====
/-
  Dense layer 0: the pipelined matrix-product kernel as one function of its two arrays.

  The grid has twenty points; point t reads rows 5000 t … 5000 t + 4999 of the activations and the whole weight
  matrix, and writes the same rows of the output. A block of a matrix product is the product of the row block, so the
  twenty write-backs are the blocks of one array, the product of the activations and the weights, and they cover it.
-/
import proofs.«144072_j32246614458736_1_alg».proof.Proof.Gen.KernelIdeal.Frame
import proofs.«144072_j32246614458736_1_alg».proof.Proof.Spec
import proofs.«144072_j32246614458736_1_alg».proof.Proof.LibPlainDot
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz_mm0 : (![0, 0] : Fin 2 → Nat) = fun _ => 0 := funext fun a => by fin_cases a <;> rfl

/-- The body's stored value is the product of its two loaded blocks: rounding to bf16 is the identity on exact
    values and the accumulator starts at zero. -/
theorem pay_mm0 (x0 : Vec Ideal S5000x128 .f32) (x1 : Vec Ideal S128x128 .f32) :
    k0_pay1 (F := Ideal) x0 x1 = GcnLayers.mm (M := 5000) (K := 128) (N := 128) x0 x1 := by
  funext j
  obtain ⟨r, q, rfl⟩ : ∃ (r : Fin 5000) (q : Fin 128), j = ix2 r q := ⟨j 0, j 1, eq_ix2 j⟩
  unfold k0_pay1
  simp only [shapeCast_self]
  exact PlainDot.matmul_zero_apply none x0 x1 r q

/-- The printed index maps over the grid: the activations' and the output's block is row block t, the weights' the
    one block. -/
theorem idx_mm0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A row-block index of the output, embedded in the array, is that row of the array. -/
theorem emb_out_mm0 (t : Fin cfg0.N) (r : Fin 5000) (q : Fin 128) (R : Fin 100000) (hR : R.val = t.val * 5000 + r.val) :
    ((cfg0.win 2).blk t).view.emb (ix2 r q) = (ix2 R q : S100000x128.Idx) := by
  obtain ⟨e0, e1, e2, e3, e4, e5⟩ := idx_mm0 t
  funext a
  apply Fin.ext
  match a with
  | ⟨0, _⟩ => show win0_2.index t (0 : Fin 2) * 5000 + 1 * r.val = R.val; omega
  | ⟨1, _⟩ => show win0_2.index t (1 : Fin 2) * 128 + 1 * q.val = q.val; omega

/-- The activations' block at point t is rows 5000 t … of the array. -/
theorem iblk_mm0_0 (c : Dev nD) (t : Fin cfg0.N) (r : Fin 5000) (k : Fin 128) (R : Fin 100000)
    (hR : R.val = t.val * 5000 + r.val) :
    (iblk0 V c 0 t : Vec Ideal S5000x128 .f32) (ix2 r k) = (V c main_arg0 : S100000x128.Idx → EReal) (ix2 R k) := by
  obtain ⟨e0, e1, e2, e3, e4, e5⟩ := idx_mm0 t
  unfold iblk0
  rw [View.read_apply]
  show V c main_arg0 _ = V c main_arg0 _
  refine congrArg _ (funext fun a => Fin.ext ?_)
  match a with
  | ⟨0, _⟩ => show win0_0.index t (0 : Fin 2) * 5000 + 1 * r.val = R.val; omega
  | ⟨1, _⟩ => show win0_0.index t (1 : Fin 2) * 128 + 1 * k.val = k.val; omega

/-- The weights' block at every point is the whole matrix. -/
theorem iblk_mm0_1 (c : Dev nD) (t : Fin cfg0.N) (k q : Fin 128) :
    (iblk0 V c 1 t : Vec Ideal S128x128 .f32) (ix2 k q) = (V c main_v33 : S128x128.Idx → EReal) (ix2 k q) := by
  obtain ⟨e0, e1, e2, e3, e4, e5⟩ := idx_mm0 t
  unfold iblk0
  rw [View.read_apply]
  show V c main_v33 _ = V c main_v33 _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- What point t writes back is block t of the product of the two arrays as the region finds them. -/
theorem flushed_mm0 (c : Dev nD) (t : Fin cfg0.N) :
    (dat0 V c).flushed 2 t = ((cfg0.win 2).blk t).view.read (Elt Ideal)
      (GcnLayers.mm (M := 100000) (K := 128) (N := 128) (V c main_arg0) (V c main_v33)) := by
  show (cfg0.win 2).cut (grid0.coords t) ((dat0 V c).after 2 t) = _
  rw [after0_2]
  unfold out0_2
  rw [View.canon_unit_zero hz_mm0]
  simp only [View.ld_unit_zero (S := S5000x128) hz_mm0, View.ld_unit_zero (S := S128x128) hz_mm0]
  rw [pay_mm0]
  funext j
  obtain ⟨r, q, rfl⟩ : ∃ (r : Fin 5000) (q : Fin 128), j = ix2 r q := ⟨j 0, j 1, eq_ix2 j⟩
  have hlt : t.val < 20 := by have h := t.isLt; have hN : cfg0.N = 20 := N_0; omega
  show GcnLayers.mm (iblk0 V c 0 t) (iblk0 V c 1 t) (ix2 r q)
    = GcnLayers.mm (V c main_arg0) (V c main_v33) (((cfg0.win 2).blk t).view.emb (ix2 r q))
  rw [emb_out_mm0 t r q ⟨t.val * 5000 + r.val, by have := r.isLt; omega⟩ rfl, GcnLayers.mm_apply, GcnLayers.mm_apply]
  refine Finset.sum_congr rfl fun k _ => ?_
  rw [iblk_mm0_0 V c t r k ⟨t.val * 5000 + r.val, by have := r.isLt; omega⟩ rfl, iblk_mm0_1 V c t k q]

/-- An index of the output array is in point t's block iff each coordinate is in the block's range. -/
theorem mem_blk_mm0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v34).slice (win0_2.rect t)).set ↔ _
  rw [View.set_slice_whole, Rect.mem_set_unit]
  exact Iff.rfl

/-- The output array after the region: the product of the two arrays as the region finds them. Row i lies in the
    block of point i / 5000. -/
theorem final_mm0 (c : Dev nD) :
    (dat0 V c).arrAt 2 cfg0.N = GcnLayers.mm (M := 100000) (K := 128) (N := 128) (V c main_arg0) (V c main_v33) :=
  (dat0 V c).arrAt_eq_of_cover 2 _ (fun t _ => flushed_mm0 V c t) fun i => by
    have hi0 : (i 0).val < 100000 := (i 0).isLt
    have hi1 : (i 1).val < 128 := (i 1).isLt
    have hN : cfg0.N = 20 := N_0
    refine ⟨⟨(i 0).val / 5000, by omega⟩, flush0_2 _, ?_⟩
    obtain ⟨e0, e1, e2, e3, e4, e5⟩ := idx_mm0 ⟨(i 0).val / 5000, by omega⟩
    rw [mem_blk_mm0]
    intro a
    match a with
    | ⟨0, _⟩ =>
      show win0_2.index _ (0 : Fin 2) * 5000 ≤ (i 0).val ∧ (i 0).val < win0_2.index _ (0 : Fin 2) * 5000 + 5000
      rw [e4]; show (i 0).val / 5000 * 5000 ≤ (i 0).val ∧ (i 0).val < (i 0).val / 5000 * 5000 + 5000; omega
    | ⟨1, _⟩ =>
      show win0_2.index _ (1 : Fin 2) * 128 ≤ (i 1).val ∧ (i 1).val < win0_2.index _ (1 : Fin 2) * 128 + 128
      rw [e5]; omega

end Cert.KernelIdeal.Bridge

end
-- ==== Proof.RegionMM2.lean ====
/-
  Dense layer 1: the pipelined matrix-product kernel as one function of its two arrays.

  The grid has twenty points; point t reads rows 5000 t … 5000 t + 4999 of the activations and the whole weight
  matrix, and writes the same rows of the output. A block of a matrix product is the product of the row block, so the
  twenty write-backs are the blocks of one array, the product of the activations and the weights, and they cover it.
-/
import proofs.«144072_j32246614458736_1_alg».proof.Proof.Gen.KernelIdeal.Frame
import proofs.«144072_j32246614458736_1_alg».proof.Proof.Spec
import proofs.«144072_j32246614458736_1_alg».proof.Proof.LibPlainDot
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz_mm2 : (![0, 0] : Fin 2 → Nat) = fun _ => 0 := funext fun a => by fin_cases a <;> rfl

/-- The body's stored value is the product of its two loaded blocks: rounding to bf16 is the identity on exact
    values and the accumulator starts at zero. -/
theorem pay_mm2 (x0 : Vec Ideal S5000x128 .f32) (x1 : Vec Ideal S128x128 .f32) :
    k2_pay1 (F := Ideal) x0 x1 = GcnLayers.mm (M := 5000) (K := 128) (N := 128) x0 x1 := by
  funext j
  obtain ⟨r, q, rfl⟩ : ∃ (r : Fin 5000) (q : Fin 128), j = ix2 r q := ⟨j 0, j 1, eq_ix2 j⟩
  unfold k2_pay1
  simp only [shapeCast_self]
  exact PlainDot.matmul_zero_apply none x0 x1 r q

/-- The printed index maps over the grid: the activations' and the output's block is row block t, the weights' the
    one block. -/
theorem idx_mm2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A row-block index of the output, embedded in the array, is that row of the array. -/
theorem emb_out_mm2 (t : Fin cfg2.N) (r : Fin 5000) (q : Fin 128) (R : Fin 100000) (hR : R.val = t.val * 5000 + r.val) :
    ((cfg2.win 2).blk t).view.emb (ix2 r q) = (ix2 R q : S100000x128.Idx) := by
  obtain ⟨e0, e1, e2, e3, e4, e5⟩ := idx_mm2 t
  funext a
  apply Fin.ext
  match a with
  | ⟨0, _⟩ => show win2_2.index t (0 : Fin 2) * 5000 + 1 * r.val = R.val; omega
  | ⟨1, _⟩ => show win2_2.index t (1 : Fin 2) * 128 + 1 * q.val = q.val; omega

/-- The activations' block at point t is rows 5000 t … of the array. -/
theorem iblk_mm2_0 (c : Dev nD) (t : Fin cfg2.N) (r : Fin 5000) (k : Fin 128) (R : Fin 100000)
    (hR : R.val = t.val * 5000 + r.val) :
    (iblk2 V c 0 t : Vec Ideal S5000x128 .f32) (ix2 r k) = (V c main_v63 : S100000x128.Idx → EReal) (ix2 R k) := by
  obtain ⟨e0, e1, e2, e3, e4, e5⟩ := idx_mm2 t
  unfold iblk2
  rw [View.read_apply]
  show V c main_v63 _ = V c main_v63 _
  refine congrArg _ (funext fun a => Fin.ext ?_)
  match a with
  | ⟨0, _⟩ => show win2_0.index t (0 : Fin 2) * 5000 + 1 * r.val = R.val; omega
  | ⟨1, _⟩ => show win2_0.index t (1 : Fin 2) * 128 + 1 * k.val = k.val; omega

/-- The weights' block at every point is the whole matrix. -/
theorem iblk_mm2_1 (c : Dev nD) (t : Fin cfg2.N) (k q : Fin 128) :
    (iblk2 V c 1 t : Vec Ideal S128x128 .f32) (ix2 k q) = (V c main_v65 : S128x128.Idx → EReal) (ix2 k q) := by
  obtain ⟨e0, e1, e2, e3, e4, e5⟩ := idx_mm2 t
  unfold iblk2
  rw [View.read_apply]
  show V c main_v65 _ = V c main_v65 _
  refine congrArg _ (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- What point t writes back is block t of the product of the two arrays as the region finds them. -/
theorem flushed_mm2 (c : Dev nD) (t : Fin cfg2.N) :
    (dat2 V c).flushed 2 t = ((cfg2.win 2).blk t).view.read (Elt Ideal)
      (GcnLayers.mm (M := 100000) (K := 128) (N := 128) (V c main_v63) (V c main_v65)) := by
  show (cfg2.win 2).cut (grid2.coords t) ((dat2 V c).after 2 t) = _
  rw [after2_2]
  unfold out2_2
  rw [View.canon_unit_zero hz_mm2]
  simp only [View.ld_unit_zero (S := S5000x128) hz_mm2, View.ld_unit_zero (S := S128x128) hz_mm2]
  rw [pay_mm2]
  funext j
  obtain ⟨r, q, rfl⟩ : ∃ (r : Fin 5000) (q : Fin 128), j = ix2 r q := ⟨j 0, j 1, eq_ix2 j⟩
  have hlt : t.val < 20 := by have h := t.isLt; have hN : cfg2.N = 20 := N_2; omega
  show GcnLayers.mm (iblk2 V c 0 t) (iblk2 V c 1 t) (ix2 r q)
    = GcnLayers.mm (V c main_v63) (V c main_v65) (((cfg2.win 2).blk t).view.emb (ix2 r q))
  rw [emb_out_mm2 t r q ⟨t.val * 5000 + r.val, by have := r.isLt; omega⟩ rfl, GcnLayers.mm_apply, GcnLayers.mm_apply]
  refine Finset.sum_congr rfl fun k _ => ?_
  rw [iblk_mm2_0 V c t r k ⟨t.val * 5000 + r.val, by have := r.isLt; omega⟩ rfl, iblk_mm2_1 V c t k q]

/-- An index of the output array is in point t's block iff each coordinate is in the block's range. -/
theorem mem_blk_mm2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v66).slice (win2_2.rect t)).set ↔ _
  rw [View.set_slice_whole, Rect.mem_set_unit]
  exact Iff.rfl

/-- The output array after the region: the product of the two arrays as the region finds them. Row i lies in the
    block of point i / 5000. -/
theorem final_mm2 (c : Dev nD) :
    (dat2 V c).arrAt 2 cfg2.N = GcnLayers.mm (M := 100000) (K := 128) (N := 128) (V c main_v63) (V c main_v65) :=
  (dat2 V c).arrAt_eq_of_cover 2 _ (fun t _ => flushed_mm2 V c t) fun i => by
    have hi0 : (i 0).val < 100000 := (i 0).isLt
    have hi1 : (i 1).val < 128 := (i 1).isLt
    have hN : cfg2.N = 20 := N_2
    refine ⟨⟨(i 0).val / 5000, by omega⟩, flush2_2 _, ?_⟩
    obtain ⟨e0, e1, e2, e3, e4, e5⟩ := idx_mm2 ⟨(i 0).val / 5000, by omega⟩
    rw [mem_blk_mm2]
    intro a
    match a with
    | ⟨0, _⟩ =>
      show win2_2.index _ (0 : Fin 2) * 5000 ≤ (i 0).val ∧ (i 0).val < win2_2.index _ (0 : Fin 2) * 5000 + 5000
      rw [e4]; show (i 0).val / 5000 * 5000 ≤ (i 0).val ∧ (i 0).val < (i 0).val / 5000 * 5000 + 5000; omega
    | ⟨1, _⟩ =>
      show win2_2.index _ (1 : Fin 2) * 128 ≤ (i 1).val ∧ (i 1).val < win2_2.index _ (1 : Fin 2) * 128 + 128
      rw [e5]; omega

end Cert.KernelIdeal.Bridge

end
-- ==== Proof.RegionMM4.lean ====
/-
  Dense layer 2: the pipelined matrix-product kernel as one function of its two arrays.

  The grid has twenty points; point t reads rows 5000 t … 5000 t + 4999 of the activations and the whole weight
  matrix, and writes the same rows of the output. A block of a matrix product is the product of the row block, so the
  twenty write-backs are the blocks of one array, the product of the activations and the weights, and they cover it.
-/
import proofs.«144072_j32246614458736_1_alg».proof.Proof.Gen.KernelIdeal.Frame
import proofs.«144072_j32246614458736_1_alg».proof.Proof.Spec
import proofs.«144072_j32246614458736_1_alg».proof.Proof.LibPlainDot
import Idealize.ShloMosaic.Lib.Pipeline.Value

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz_mm4 : (![0, 0] : Fin 2 → Nat) = fun _ => 0 := funext fun a => by fin_cases a <;> rfl

/-- The body's stored value is the product of its two loaded blocks: rounding to bf16 is the identity on exact
    values and the accumulator starts at zero. -/
theorem pay_mm4 (x0 : Vec Ideal S5000x128 .f32) (x1 : Vec Ideal S128x128 .f32) :
    k4_pay1 (F := Ideal) x0 x1 = GcnLayers.mm (M := 5000) (K := 128) (N := 128) x0 x1 := by
  funext j
  obtain ⟨r, q, rfl⟩ : ∃ (r : Fin 5000) (q : Fin 128), j = ix2 r q := ⟨j 0, j 1, eq_ix2 j⟩
  unfold k4_pay1
  simp only [shapeCast_self]
  exact PlainDot.matmul_zero_apply none x0 x1 r q

/-- The printed index maps over the grid: the activations' and the output's block is row block t, the weights' the
    one block. -/
theorem idx_mm4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- A row-block index of the output, embedded in the array, is that row of the array. -/
theorem emb_out_mm4 (t : Fin cfg4.N) (r : Fin 5000) (q : Fin 128) (R : Fin 100000) (hR : R.val = t.val * 5000 + r.val) :
    ((cfg4.win 2).blk t).view.emb (ix2 r q) = (ix2 R q : S100000x128.Idx) := by
  obtain ⟨e0, e1, e2, e3, e4, e5⟩ := idx_mm4 t
  funext a
  apply Fin.ext
  match a with
  | ⟨0, _⟩ => show win4_2.index t (0 : Fin 2) * 5000 + 1 * r.val = R.val; omega
  | ⟨1, _⟩ => show win4_2.index t (1 : Fin 2) * 128 + 1 * q.val = q.val; omega

/-- The activations' block at point t is rows 5000 t … of the array. -/
theorem iblk_mm4_0 (c : Dev nD) (t : Fin cfg4.N) (r : Fin 5000) (k : Fin 128) (R : Fin 100000)
    (hR : R.val = t.val * 5000 + r.val) :
    (iblk4 V c 0 t : Vec Ideal S5000x128 .f32) (ix2 r k) = (V c main_v95 : S100000x128.Idx → EReal) (ix2 R k) := by
  obtain ⟨e0, e1, e2, e3, e4, e5⟩ := idx_mm4 t
  unfold iblk4
  rw [View.read_apply]
  show V c main_v95 _ = V c main_v95 _
  refine congrArg _ (funext fun a => Fin.ext ?_)
  match a with
  | ⟨0, _⟩ => show win4_0.index t (0 : Fin 2) * 5000 + 1 * r.val = R.val; omega
  | ⟨1, _⟩ => show win4_0.index t (1 : Fin 2) * 128 + 1 * k.val = k.val; omega

/-- The weights' block at every point is the whole matrix. -/
theorem iblk_mm4_1 (c : Dev nD) (t : Fin cfg4.N) (k q : Fin 128) :
    (iblk4 V c 1 t : Vec Ideal S128x128 .f32) (ix2 k q) = (V c main_v97 : S128x128.Idx → EReal) (ix2 k q) := by
  obtain ⟨e0, e1, e2, e3, e4, e5⟩ := idx_mm4 t
  unfold iblk4
  rw [View.read_apply]
  show V c main_v97 _ = V c main_v97 _
  refine congrArg _ (funext fun a => Fin.ext ?_)
  match a with
  | ⟨0, _⟩ => show win4_1.index t (0 : Fin 2) * 128 + 1 * k.val = k.val; omega
  | ⟨1, _⟩ => show win4_1.index t (1 : Fin 2) * 128 + 1 * q.val = q.val; omega

/-- What point t writes back is block t of the product of the two arrays as the region finds them. -/
theorem flushed_mm4 (c : Dev nD) (t : Fin cfg4.N) :
    (dat4 V c).flushed 2 t = ((cfg4.win 2).blk t).view.read (Elt Ideal)
      (GcnLayers.mm (M := 100000) (K := 128) (N := 128) (V c main_v95) (V c main_v97)) := by
  show (cfg4.win 2).cut (grid4.coords t) ((dat4 V c).after 2 t) = _
  rw [after4_2]
  unfold out4_2
  rw [View.canon_unit_zero hz_mm4]
  simp only [View.ld_unit_zero (S := S5000x128) hz_mm4, View.ld_unit_zero (S := S128x128) hz_mm4]
  rw [pay_mm4]
  funext j
  obtain ⟨r, q, rfl⟩ : ∃ (r : Fin 5000) (q : Fin 128), j = ix2 r q := ⟨j 0, j 1, eq_ix2 j⟩
  have hlt : t.val < 20 := by have h := t.isLt; have hN : cfg4.N = 20 := N_4; omega
  show GcnLayers.mm (iblk4 V c 0 t) (iblk4 V c 1 t) (ix2 r q)
    = GcnLayers.mm (V c main_v95) (V c main_v97) (((cfg4.win 2).blk t).view.emb (ix2 r q))
  rw [emb_out_mm4 t r q ⟨t.val * 5000 + r.val, by have := r.isLt; omega⟩ rfl, GcnLayers.mm_apply, GcnLayers.mm_apply]
  refine Finset.sum_congr rfl fun k _ => ?_
  rw [iblk_mm4_0 V c t r k ⟨t.val * 5000 + r.val, by have := r.isLt; omega⟩ rfl, iblk_mm4_1 V c t k q]

/-- An index of the output array is in point t's block iff each coordinate is in the block's range. -/
theorem mem_blk_mm4 (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v98).slice (win4_2.rect t)).set ↔ _
  rw [View.set_slice_whole, Rect.mem_set_unit]
  exact Iff.rfl

/-- The output array after the region: the product of the two arrays as the region finds them. Row i lies in the
    block of point i / 5000. -/
theorem final_mm4 (c : Dev nD) :
    (dat4 V c).arrAt 2 cfg4.N = GcnLayers.mm (M := 100000) (K := 128) (N := 128) (V c main_v95) (V c main_v97) :=
  (dat4 V c).arrAt_eq_of_cover 2 _ (fun t _ => flushed_mm4 V c t) fun i => by
    have hi0 : (i 0).val < 100000 := (i 0).isLt
    have hi1 : (i 1).val < 128 := (i 1).isLt
    have hN : cfg4.N = 20 := N_4
    refine ⟨⟨(i 0).val / 5000, by omega⟩, flush4_2 _, ?_⟩
    obtain ⟨e0, e1, e2, e3, e4, e5⟩ := idx_mm4 ⟨(i 0).val / 5000, by omega⟩
    rw [mem_blk_mm4]
    intro a
    match a with
    | ⟨0, _⟩ =>
      show win4_2.index _ (0 : Fin 2) * 5000 ≤ (i 0).val ∧ (i 0).val < win4_2.index _ (0 : Fin 2) * 5000 + 5000
      rw [e4]; show (i 0).val / 5000 * 5000 ≤ (i 0).val ∧ (i 0).val < (i 0).val / 5000 * 5000 + 5000; omega
    | ⟨1, _⟩ =>
      show win4_2.index _ (1 : Fin 2) * 128 ≤ (i 1).val ∧ (i 1).val < win4_2.index _ (1 : Fin 2) * 128 + 128
      rw [e5]; omega

end Cert.KernelIdeal.Bridge

end
-- ==== Proof.RegionBN1.lean ====
/-
  Normalisation 0: the pipelined bias, batch-norm and positive-part kernel as one function of its six arrays.

  The grid has twenty points; point t reads rows 5000 t … 5000 t + 4999 of the aggregated array and the five one-row
  parameter arrays whole, and writes the same rows of the output. The layer function acts row by row, so the twenty
  write-backs are the blocks of one array, the layer function of the six arrays, and they cover it.
-/
import proofs.«144072_j32246614458736_1_alg».proof.Proof.Gen.KernelIdeal.Frame
import proofs.«144072_j32246614458736_1_alg».proof.Proof.Spec
import Idealize.ShloMosaic.Lib.Pipeline.Value
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz_bn1 : (![0, 0] : Fin 2 → Nat) = fun _ => 0 := funext fun a => by fin_cases a <;> rfl

/-- The body's stored value is the layer function of its six loaded blocks. -/
theorem pay_bn1 (x0 : Vec Ideal S5000x128 .f32) (x1 x2 x3 x4 x5 : Vec Ideal S1x128 .f32) :
    k1_pay1 (F := Ideal) x0 x1 x2 x3 x4 x5 = GcnLayers.bnRelu (M := 5000) (N := 128) x0 x1 x2 x3 x4 x5 := by
  funext j
  obtain ⟨r, q, rfl⟩ : ∃ (r : Fin 5000) (q : Fin 128), j = ix2 r q := ⟨j 0, j 1, eq_ix2 j⟩
  unfold k1_pay1
  simp only [shapeCast_self]
  rw [GcnLayers.bnRelu_apply]
  simp only [maximumf_apply, addf_apply, mulf_apply, subf_apply, broadcastTo_1b_ab_apply, broadcast_apply]
  rfl

/-- The printed index maps over the grid: the aggregated array's and the output's block is row block t, each
    parameter row's the one block. -/
theorem idx_bn1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A row-block index of the output, embedded in the array, is that row of the array. -/
theorem emb_out_bn1 (t : Fin cfg1.N) (r : Fin 5000) (q : Fin 128) (R : Fin 100000) (hR : R.val = t.val * 5000 + r.val) :
    ((cfg1.win 6).blk t).view.emb (ix2 r q) = (ix2 R q : S100000x128.Idx) := by
  obtain ⟨e0, e1, f10, f11, f20, f21, f30, f31, f40, f41, f50, f51, e4, e5⟩ := idx_bn1 t
  funext a
  apply Fin.ext
  match a with
  | ⟨0, _⟩ => show win1_6.index t (0 : Fin 2) * 5000 + 1 * r.val = R.val; omega
  | ⟨1, _⟩ => show win1_6.index t (1 : Fin 2) * 128 + 1 * q.val = q.val; omega

/-- The aggregated array's block at point t is rows 5000 t … of the array. -/
theorem iblk_bn1_0 (c : Dev nD) (t : Fin cfg1.N) (r : Fin 5000) (q : Fin 128) (R : Fin 100000)
    (hR : R.val = t.val * 5000 + r.val) :
    (iblk1 V c 0 t : Vec Ideal S5000x128 .f32) (ix2 r q) = (V c main_v47 : S100000x128.Idx → EReal) (ix2 R q) := by
  obtain ⟨e0, e1, f10, f11, f20, f21, f30, f31, f40, f41, f50, f51, e4, e5⟩ := idx_bn1 t
  unfold iblk1
  rw [View.read_apply]
  show V c main_v47 _ = V c main_v47 _
  refine congrArg _ (funext fun a => Fin.ext ?_)
  match a with
  | ⟨0, _⟩ => show win1_0.index t (0 : Fin 2) * 5000 + 1 * r.val = R.val; omega
  | ⟨1, _⟩ => show win1_0.index t (1 : Fin 2) * 128 + 1 * q.val = q.val; omega

/-! Each parameter row's block at every point is the whole row. -/

theorem iblk_bn1_1 (c : Dev nD) (t : Fin cfg1.N) (q : Fin 128) :
    (iblk1 V c 1 t : Vec Ideal S1x128 .f32) (ix2 (0 : Fin 1) q) = (V c main_v58 : S1x128.Idx → EReal) (ix2 (0 : Fin 1) q) := by
  obtain ⟨e0, e1, f10, f11, f20, f21, f30, f31, f40, f41, f50, f51, e4, e5⟩ := idx_bn1 t
  unfold iblk1
  rw [View.read_apply]
  show V c main_v58 _ = V c main_v58 _
  refine congrArg _ (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

theorem iblk_bn1_2 (c : Dev nD) (t : Fin cfg1.N) (q : Fin 128) :
    (iblk1 V c 2 t : Vec Ideal S1x128 .f32) (ix2 (0 : Fin 1) q) = (V c main_v59 : S1x128.Idx → EReal) (ix2 (0 : Fin 1) q) := by
  obtain ⟨e0, e1, f10, f11, f20, f21, f30, f31, f40, f41, f50, f51, e4, e5⟩ := idx_bn1 t
  unfold iblk1
  rw [View.read_apply]
  show V c main_v59 _ = V c main_v59 _
  refine congrArg _ (funext fun a => Fin.ext ?_)
  match a with
  | ⟨0, _⟩ => show win1_2.index t (0 : Fin 2) * 1 + 1 * 0 = 0; omega
  | ⟨1, _⟩ => show win1_2.index t (1 : Fin 2) * 128 + 1 * q.val = q.val; omega

theorem iblk_bn1_3 (c : Dev nD) (t : Fin cfg1.N) (q : Fin 128) :
    (iblk1 V c 3 t : Vec Ideal S1x128 .f32) (ix2 (0 : Fin 1) q) = (V c main_v60 : S1x128.Idx → EReal) (ix2 (0 : Fin 1) q) := by
  obtain ⟨e0, e1, f10, f11, f20, f21, f30, f31, f40, f41, f50, f51, e4, e5⟩ := idx_bn1 t
  unfold iblk1
  rw [View.read_apply]
  show V c main_v60 _ = V c main_v60 _
  refine congrArg _ (funext fun a => Fin.ext ?_)
  match a with
  | ⟨0, _⟩ => show win1_3.index t (0 : Fin 2) * 1 + 1 * 0 = 0; omega
  | ⟨1, _⟩ => show win1_3.index t (1 : Fin 2) * 128 + 1 * q.val = q.val; omega

theorem iblk_bn1_4 (c : Dev nD) (t : Fin cfg1.N) (q : Fin 128) :
    (iblk1 V c 4 t : Vec Ideal S1x128 .f32) (ix2 (0 : Fin 1) q) = (V c main_v61 : S1x128.Idx → EReal) (ix2 (0 : Fin 1) q) := by
  obtain ⟨e0, e1, f10, f11, f20, f21, f30, f31, f40, f41, f50, f51, e4, e5⟩ := idx_bn1 t
  unfold iblk1
  rw [View.read_apply]
  show V c main_v61 _ = V c main_v61 _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

theorem iblk_bn1_5 (c : Dev nD) (t : Fin cfg1.N) (q : Fin 128) :
    (iblk1 V c 5 t : Vec Ideal S1x128 .f32) (ix2 (0 : Fin 1) q) = (V c main_v62 : S1x128.Idx → EReal) (ix2 (0 : Fin 1) q) := by
  obtain ⟨e0, e1, f10, f11, f20, f21, f30, f31, f40, f41, f50, f51, e4, e5⟩ := idx_bn1 t
  unfold iblk1
  rw [View.read_apply]
  show V c main_v62 _ = V c main_v62 _
  refine congrArg _ (funext fun a => Fin.ext ?_)
  match a with
  | ⟨0, _⟩ => show win1_5.index t (0 : Fin 2) * 1 + 1 * 0 = 0; omega
  | ⟨1, _⟩ => show win1_5.index t (1 : Fin 2) * 128 + 1 * q.val = q.val; omega

/-- What point t writes back is block t of the layer function of the six arrays as the region finds them. -/
theorem flushed_bn1 (c : Dev nD) (t : Fin cfg1.N) :
    (dat1 V c).flushed 6 t = ((cfg1.win 6).blk t).view.read (Elt Ideal)
      (GcnLayers.bnRelu (M := 100000) (N := 128) (V c main_v47) (V c main_v58) (V c main_v59) (V c main_v60) (V c main_v61) (V c main_v62)) := by
  show (cfg1.win 6).cut (grid1.coords t) ((dat1 V c).after 6 t) = _
  rw [after1_6]
  unfold out1_6
  rw [View.canon_unit_zero hz_bn1]
  simp only [View.ld_unit_zero (S := S5000x128) hz_bn1, View.ld_unit_zero (S := S1x128) hz_bn1]
  rw [pay_bn1]
  funext j
  obtain ⟨r, q, rfl⟩ : ∃ (r : Fin 5000) (q : Fin 128), j = ix2 r q := ⟨j 0, j 1, eq_ix2 j⟩
  have hlt : t.val < 20 := by have h := t.isLt; have hN : cfg1.N = 20 := N_1; omega
  show GcnLayers.bnRelu (iblk1 V c 0 t) (iblk1 V c 1 t) (iblk1 V c 2 t) (iblk1 V c 3 t) (iblk1 V c 4 t) (iblk1 V c 5 t) (ix2 r q)
    = GcnLayers.bnRelu (V c main_v47) (V c main_v58) (V c main_v59) (V c main_v60) (V c main_v61) (V c main_v62) (((cfg1.win 6).blk t).view.emb (ix2 r q))
  rw [emb_out_bn1 t r q ⟨t.val * 5000 + r.val, by have := r.isLt; omega⟩ rfl, GcnLayers.bnRelu_apply, GcnLayers.bnRelu_apply,
    iblk_bn1_0 V c t r q ⟨t.val * 5000 + r.val, by have := r.isLt; omega⟩ rfl,
    iblk_bn1_1 V c t q, iblk_bn1_2 V c t q, iblk_bn1_3 V c t q, iblk_bn1_4 V c t q, iblk_bn1_5 V c t q]

/-- An index of the output array is in point t's block iff each coordinate is in the block's range. -/
theorem mem_blk_bn1 (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v63).slice (win1_6.rect t)).set ↔ _
  rw [View.set_slice_whole, Rect.mem_set_unit]
  exact Iff.rfl

/-- The output array after the region: the layer function of the six arrays as the region finds them. Row i lies in
    the block of point i / 5000. -/
theorem final_bn1 (c : Dev nD) :
    (dat1 V c).arrAt 6 cfg1.N
      = GcnLayers.bnRelu (M := 100000) (N := 128) (V c main_v47) (V c main_v58) (V c main_v59) (V c main_v60) (V c main_v61) (V c main_v62) :=
  (dat1 V c).arrAt_eq_of_cover 6 _ (fun t _ => flushed_bn1 V c t) fun i => by
    have hi0 : (i 0).val < 100000 := (i 0).isLt
    have hi1 : (i 1).val < 128 := (i 1).isLt
    have hN : cfg1.N = 20 := N_1
    refine ⟨⟨(i 0).val / 5000, by omega⟩, flush1_6 _, ?_⟩
    obtain ⟨e0, e1, f10, f11, f20, f21, f30, f31, f40, f41, f50, f51, e4, e5⟩ := idx_bn1 ⟨(i 0).val / 5000, by omega⟩
    rw [mem_blk_bn1]
    intro a
    match a with
    | ⟨0, _⟩ =>
      show win1_6.index _ (0 : Fin 2) * 5000 ≤ (i 0).val ∧ (i 0).val < win1_6.index _ (0 : Fin 2) * 5000 + 5000
      rw [e4]; show (i 0).val / 5000 * 5000 ≤ (i 0).val ∧ (i 0).val < (i 0).val / 5000 * 5000 + 5000; omega
    | ⟨1, _⟩ =>
      show win1_6.index _ (1 : Fin 2) * 128 ≤ (i 1).val ∧ (i 1).val < win1_6.index _ (1 : Fin 2) * 128 + 128
      rw [e5]; omega

end Cert.KernelIdeal.Bridge

end
-- ==== Proof.RegionBN3.lean ====
/-
  Normalisation 1: the pipelined bias, batch-norm and positive-part kernel as one function of its six arrays.

  The grid has twenty points; point t reads rows 5000 t … 5000 t + 4999 of the aggregated array and the five one-row
  parameter arrays whole, and writes the same rows of the output. The layer function acts row by row, so the twenty
  write-backs are the blocks of one array, the layer function of the six arrays, and they cover it.
-/
import proofs.«144072_j32246614458736_1_alg».proof.Proof.Gen.KernelIdeal.Frame
import proofs.«144072_j32246614458736_1_alg».proof.Proof.Spec
import Idealize.ShloMosaic.Lib.Pipeline.Value
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz_bn3 : (![0, 0] : Fin 2 → Nat) = fun _ => 0 := funext fun a => by fin_cases a <;> rfl

/-- The body's stored value is the layer function of its six loaded blocks. -/
theorem pay_bn3 (x0 : Vec Ideal S5000x128 .f32) (x1 x2 x3 x4 x5 : Vec Ideal S1x128 .f32) :
    k3_pay1 (F := Ideal) x0 x1 x2 x3 x4 x5 = GcnLayers.bnRelu (M := 5000) (N := 128) x0 x1 x2 x3 x4 x5 := by
  funext j
  obtain ⟨r, q, rfl⟩ : ∃ (r : Fin 5000) (q : Fin 128), j = ix2 r q := ⟨j 0, j 1, eq_ix2 j⟩
  unfold k3_pay1
  simp only [shapeCast_self]
  rw [GcnLayers.bnRelu_apply]
  simp only [maximumf_apply, addf_apply, mulf_apply, subf_apply, broadcastTo_1b_ab_apply, broadcast_apply]
  rfl

/-- The printed index maps over the grid: the aggregated array's and the output's block is row block t, each
    parameter row's the one block. -/
theorem idx_bn3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- A row-block index of the output, embedded in the array, is that row of the array. -/
theorem emb_out_bn3 (t : Fin cfg3.N) (r : Fin 5000) (q : Fin 128) (R : Fin 100000) (hR : R.val = t.val * 5000 + r.val) :
    ((cfg3.win 6).blk t).view.emb (ix2 r q) = (ix2 R q : S100000x128.Idx) := by
  obtain ⟨e0, e1, f10, f11, f20, f21, f30, f31, f40, f41, f50, f51, e4, e5⟩ := idx_bn3 t
  funext a
  apply Fin.ext
  match a with
  | ⟨0, _⟩ => show win3_6.index t (0 : Fin 2) * 5000 + 1 * r.val = R.val; omega
  | ⟨1, _⟩ => show win3_6.index t (1 : Fin 2) * 128 + 1 * q.val = q.val; omega

/-- The aggregated array's block at point t is rows 5000 t … of the array. -/
theorem iblk_bn3_0 (c : Dev nD) (t : Fin cfg3.N) (r : Fin 5000) (q : Fin 128) (R : Fin 100000)
    (hR : R.val = t.val * 5000 + r.val) :
    (iblk3 V c 0 t : Vec Ideal S5000x128 .f32) (ix2 r q) = (V c main_v79 : S100000x128.Idx → EReal) (ix2 R q) := by
  obtain ⟨e0, e1, f10, f11, f20, f21, f30, f31, f40, f41, f50, f51, e4, e5⟩ := idx_bn3 t
  unfold iblk3
  rw [View.read_apply]
  show V c main_v79 _ = V c main_v79 _
  refine congrArg _ (funext fun a => Fin.ext ?_)
  match a with
  | ⟨0, _⟩ => show win3_0.index t (0 : Fin 2) * 5000 + 1 * r.val = R.val; omega
  | ⟨1, _⟩ => show win3_0.index t (1 : Fin 2) * 128 + 1 * q.val = q.val; omega

/-! Each parameter row's block at every point is the whole row. -/

theorem iblk_bn3_1 (c : Dev nD) (t : Fin cfg3.N) (q : Fin 128) :
    (iblk3 V c 1 t : Vec Ideal S1x128 .f32) (ix2 (0 : Fin 1) q) = (V c main_v90 : S1x128.Idx → EReal) (ix2 (0 : Fin 1) q) := by
  obtain ⟨e0, e1, f10, f11, f20, f21, f30, f31, f40, f41, f50, f51, e4, e5⟩ := idx_bn3 t
  unfold iblk3
  rw [View.read_apply]
  show V c main_v90 _ = V c main_v90 _
  refine congrArg _ (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

theorem iblk_bn3_2 (c : Dev nD) (t : Fin cfg3.N) (q : Fin 128) :
    (iblk3 V c 2 t : Vec Ideal S1x128 .f32) (ix2 (0 : Fin 1) q) = (V c main_v91 : S1x128.Idx → EReal) (ix2 (0 : Fin 1) q) := by
  obtain ⟨e0, e1, f10, f11, f20, f21, f30, f31, f40, f41, f50, f51, e4, e5⟩ := idx_bn3 t
  unfold iblk3
  rw [View.read_apply]
  show V c main_v91 _ = V c main_v91 _
  refine congrArg _ (funext fun a => Fin.ext ?_)
  match a with
  | ⟨0, _⟩ => show win3_2.index t (0 : Fin 2) * 1 + 1 * 0 = 0; omega
  | ⟨1, _⟩ => show win3_2.index t (1 : Fin 2) * 128 + 1 * q.val = q.val; omega

theorem iblk_bn3_3 (c : Dev nD) (t : Fin cfg3.N) (q : Fin 128) :
    (iblk3 V c 3 t : Vec Ideal S1x128 .f32) (ix2 (0 : Fin 1) q) = (V c main_v92 : S1x128.Idx → EReal) (ix2 (0 : Fin 1) q) := by
  obtain ⟨e0, e1, f10, f11, f20, f21, f30, f31, f40, f41, f50, f51, e4, e5⟩ := idx_bn3 t
  unfold iblk3
  rw [View.read_apply]
  show V c main_v92 _ = V c main_v92 _
  refine congrArg _ (funext fun a => Fin.ext ?_)
  match a with
  | ⟨0, _⟩ => show win3_3.index t (0 : Fin 2) * 1 + 1 * 0 = 0; omega
  | ⟨1, _⟩ => show win3_3.index t (1 : Fin 2) * 128 + 1 * q.val = q.val; omega

theorem iblk_bn3_4 (c : Dev nD) (t : Fin cfg3.N) (q : Fin 128) :
    (iblk3 V c 4 t : Vec Ideal S1x128 .f32) (ix2 (0 : Fin 1) q) = (V c main_v93 : S1x128.Idx → EReal) (ix2 (0 : Fin 1) q) := by
  obtain ⟨e0, e1, f10, f11, f20, f21, f30, f31, f40, f41, f50, f51, e4, e5⟩ := idx_bn3 t
  unfold iblk3
  rw [View.read_apply]
  show V c main_v93 _ = V c main_v93 _
  refine congrArg _ (funext fun a => Fin.ext ?_)
  match a with
  | ⟨0, _⟩ => show win3_4.index t (0 : Fin 2) * 1 + 1 * 0 = 0; omega
  | ⟨1, _⟩ => show win3_4.index t (1 : Fin 2) * 128 + 1 * q.val = q.val; omega

theorem iblk_bn3_5 (c : Dev nD) (t : Fin cfg3.N) (q : Fin 128) :
    (iblk3 V c 5 t : Vec Ideal S1x128 .f32) (ix2 (0 : Fin 1) q) = (V c main_v94 : S1x128.Idx → EReal) (ix2 (0 : Fin 1) q) := by
  obtain ⟨e0, e1, f10, f11, f20, f21, f30, f31, f40, f41, f50, f51, e4, e5⟩ := idx_bn3 t
  unfold iblk3
  rw [View.read_apply]
  show V c main_v94 _ = V c main_v94 _
  refine congrArg _ (funext fun a => Fin.ext ?_)
  match a with
  | ⟨0, _⟩ => show win3_5.index t (0 : Fin 2) * 1 + 1 * 0 = 0; omega
  | ⟨1, _⟩ => show win3_5.index t (1 : Fin 2) * 128 + 1 * q.val = q.val; omega

/-- What point t writes back is block t of the layer function of the six arrays as the region finds them. -/
theorem flushed_bn3 (c : Dev nD) (t : Fin cfg3.N) :
    (dat3 V c).flushed 6 t = ((cfg3.win 6).blk t).view.read (Elt Ideal)
      (GcnLayers.bnRelu (M := 100000) (N := 128) (V c main_v79) (V c main_v90) (V c main_v91) (V c main_v92) (V c main_v93) (V c main_v94)) := by
  show (cfg3.win 6).cut (grid3.coords t) ((dat3 V c).after 6 t) = _
  rw [after3_6]
  unfold out3_6
  rw [View.canon_unit_zero hz_bn3]
  simp only [View.ld_unit_zero (S := S5000x128) hz_bn3, View.ld_unit_zero (S := S1x128) hz_bn3]
  rw [pay_bn3]
  funext j
  obtain ⟨r, q, rfl⟩ : ∃ (r : Fin 5000) (q : Fin 128), j = ix2 r q := ⟨j 0, j 1, eq_ix2 j⟩
  have hlt : t.val < 20 := by have h := t.isLt; have hN : cfg3.N = 20 := N_3; omega
  show GcnLayers.bnRelu (iblk3 V c 0 t) (iblk3 V c 1 t) (iblk3 V c 2 t) (iblk3 V c 3 t) (iblk3 V c 4 t) (iblk3 V c 5 t) (ix2 r q)
    = GcnLayers.bnRelu (V c main_v79) (V c main_v90) (V c main_v91) (V c main_v92) (V c main_v93) (V c main_v94) (((cfg3.win 6).blk t).view.emb (ix2 r q))
  rw [emb_out_bn3 t r q ⟨t.val * 5000 + r.val, by have := r.isLt; omega⟩ rfl, GcnLayers.bnRelu_apply, GcnLayers.bnRelu_apply,
    iblk_bn3_0 V c t r q ⟨t.val * 5000 + r.val, by have := r.isLt; omega⟩ rfl,
    iblk_bn3_1 V c t q, iblk_bn3_2 V c t q, iblk_bn3_3 V c t q, iblk_bn3_4 V c t q, iblk_bn3_5 V c t q]

/-- An index of the output array is in point t's block iff each coordinate is in the block's range. -/
theorem mem_blk_bn3 (t : Fin cfg3.N) (i : S100000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v95).slice (win3_6.rect t)).set ↔ _
  rw [View.set_slice_whole, Rect.mem_set_unit]
  exact Iff.rfl

/-- The output array after the region: the layer function of the six arrays as the region finds them. Row i lies in
    the block of point i / 5000. -/
theorem final_bn3 (c : Dev nD) :
    (dat3 V c).arrAt 6 cfg3.N
      = GcnLayers.bnRelu (M := 100000) (N := 128) (V c main_v79) (V c main_v90) (V c main_v91) (V c main_v92) (V c main_v93) (V c main_v94) :=
  (dat3 V c).arrAt_eq_of_cover 6 _ (fun t _ => flushed_bn3 V c t) fun i => by
    have hi0 : (i 0).val < 100000 := (i 0).isLt
    have hi1 : (i 1).val < 128 := (i 1).isLt
    have hN : cfg3.N = 20 := N_3
    refine ⟨⟨(i 0).val / 5000, by omega⟩, flush3_6 _, ?_⟩
    obtain ⟨e0, e1, f10, f11, f20, f21, f30, f31, f40, f41, f50, f51, e4, e5⟩ := idx_bn3 ⟨(i 0).val / 5000, by omega⟩
    rw [mem_blk_bn3]
    intro a
    match a with
    | ⟨0, _⟩ =>
      show win3_6.index _ (0 : Fin 2) * 5000 ≤ (i 0).val ∧ (i 0).val < win3_6.index _ (0 : Fin 2) * 5000 + 5000
      rw [e4]; show (i 0).val / 5000 * 5000 ≤ (i 0).val ∧ (i 0).val < (i 0).val / 5000 * 5000 + 5000; omega
    | ⟨1, _⟩ =>
      show win3_6.index _ (1 : Fin 2) * 128 ≤ (i 1).val ∧ (i 1).val < win3_6.index _ (1 : Fin 2) * 128 + 128
      rw [e5]; omega

end Cert.KernelIdeal.Bridge

end
-- ==== Proof.RegionBN5.lean ====
/-
  Normalisation 2: the pipelined bias, batch-norm and positive-part kernel as one function of its six arrays.

  The grid has twenty points; point t reads rows 5000 t … 5000 t + 4999 of the aggregated array and the five one-row
  parameter arrays whole, and writes the same rows of the output. The layer function acts row by row, so the twenty
  write-backs are the blocks of one array, the layer function of the six arrays, and they cover it.
-/
import proofs.«144072_j32246614458736_1_alg».proof.Proof.Gen.KernelIdeal.Frame
import proofs.«144072_j32246614458736_1_alg».proof.Proof.Spec
import Idealize.ShloMosaic.Lib.Pipeline.Value
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

theorem hz_bn5 : (![0, 0] : Fin 2 → Nat) = fun _ => 0 := funext fun a => by fin_cases a <;> rfl

/-- The body's stored value is the layer function of its six loaded blocks. -/
theorem pay_bn5 (x0 : Vec Ideal S5000x128 .f32) (x1 x2 x3 x4 x5 : Vec Ideal S1x128 .f32) :
    k5_pay1 (F := Ideal) x0 x1 x2 x3 x4 x5 = GcnLayers.bnRelu (M := 5000) (N := 128) x0 x1 x2 x3 x4 x5 := by
  funext j
  obtain ⟨r, q, rfl⟩ : ∃ (r : Fin 5000) (q : Fin 128), j = ix2 r q := ⟨j 0, j 1, eq_ix2 j⟩
  unfold k5_pay1
  simp only [shapeCast_self]
  rw [GcnLayers.bnRelu_apply]
  simp only [maximumf_apply, addf_apply, mulf_apply, subf_apply, broadcastTo_1b_ab_apply, broadcast_apply]
  rfl

/-- The printed index maps over the grid: the aggregated array's and the output's block is row block t, each
    parameter row's the one block. -/
theorem idx_bn5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- A row-block index of the output, embedded in the array, is that row of the array. -/
theorem emb_out_bn5 (t : Fin cfg5.N) (r : Fin 5000) (q : Fin 128) (R : Fin 100000) (hR : R.val = t.val * 5000 + r.val) :
    ((cfg5.win 6).blk t).view.emb (ix2 r q) = (ix2 R q : S100000x128.Idx) := by
  obtain ⟨e0, e1, f10, f11, f20, f21, f30, f31, f40, f41, f50, f51, e4, e5⟩ := idx_bn5 t
  funext a
  apply Fin.ext
  match a with
  | ⟨0, _⟩ => show win5_6.index t (0 : Fin 2) * 5000 + 1 * r.val = R.val; omega
  | ⟨1, _⟩ => show win5_6.index t (1 : Fin 2) * 128 + 1 * q.val = q.val; omega

/-- The aggregated array's block at point t is rows 5000 t … of the array. -/
theorem iblk_bn5_0 (c : Dev nD) (t : Fin cfg5.N) (r : Fin 5000) (q : Fin 128) (R : Fin 100000)
    (hR : R.val = t.val * 5000 + r.val) :
    (iblk5 V c 0 t : Vec Ideal S5000x128 .f32) (ix2 r q) = (V c main_v111 : S100000x128.Idx → EReal) (ix2 R q) := by
  obtain ⟨e0, e1, f10, f11, f20, f21, f30, f31, f40, f41, f50, f51, e4, e5⟩ := idx_bn5 t
  unfold iblk5
  rw [View.read_apply]
  show V c main_v111 _ = V c main_v111 _
  refine congrArg _ (funext fun a => Fin.ext ?_)
  match a with
  | ⟨0, _⟩ => show win5_0.index t (0 : Fin 2) * 5000 + 1 * r.val = R.val; omega
  | ⟨1, _⟩ => show win5_0.index t (1 : Fin 2) * 128 + 1 * q.val = q.val; omega

/-! Each parameter row's block at every point is the whole row. -/

theorem iblk_bn5_1 (c : Dev nD) (t : Fin cfg5.N) (q : Fin 128) :
    (iblk5 V c 1 t : Vec Ideal S1x128 .f32) (ix2 (0 : Fin 1) q) = (V c main_v122 : S1x128.Idx → EReal) (ix2 (0 : Fin 1) q) := by
  obtain ⟨e0, e1, f10, f11, f20, f21, f30, f31, f40, f41, f50, f51, e4, e5⟩ := idx_bn5 t
  unfold iblk5
  rw [View.read_apply]
  show V c main_v122 _ = V c main_v122 _
  refine congrArg _ (funext fun a => Fin.ext ?_)
  match a with
  | ⟨0, _⟩ => show win5_1.index t (0 : Fin 2) * 1 + 1 * 0 = 0; omega
  | ⟨1, _⟩ => show win5_1.index t (1 : Fin 2) * 128 + 1 * q.val = q.val; omega

theorem iblk_bn5_2 (c : Dev nD) (t : Fin cfg5.N) (q : Fin 128) :
    (iblk5 V c 2 t : Vec Ideal S1x128 .f32) (ix2 (0 : Fin 1) q) = (V c main_v123 : S1x128.Idx → EReal) (ix2 (0 : Fin 1) q) := by
  obtain ⟨e0, e1, f10, f11, f20, f21, f30, f31, f40, f41, f50, f51, e4, e5⟩ := idx_bn5 t
  unfold iblk5
  rw [View.read_apply]
  show V c main_v123 _ = V c main_v123 _
  refine congrArg _ (funext fun a => Fin.ext ?_)
  match a with
  | ⟨0, _⟩ => show win5_2.index t (0 : Fin 2) * 1 + 1 * 0 = 0; omega
  | ⟨1, _⟩ => show win5_2.index t (1 : Fin 2) * 128 + 1 * q.val = q.val; omega

theorem iblk_bn5_3 (c : Dev nD) (t : Fin cfg5.N) (q : Fin 128) :
    (iblk5 V c 3 t : Vec Ideal S1x128 .f32) (ix2 (0 : Fin 1) q) = (V c main_v124 : S1x128.Idx → EReal) (ix2 (0 : Fin 1) q) := by
  obtain ⟨e0, e1, f10, f11, f20, f21, f30, f31, f40, f41, f50, f51, e4, e5⟩ := idx_bn5 t
  unfold iblk5
  rw [View.read_apply]
  show V c main_v124 _ = V c main_v124 _
  refine congrArg _ (funext fun a => Fin.ext ?_)
  match a with
  | ⟨0, _⟩ => show win5_3.index t (0 : Fin 2) * 1 + 1 * 0 = 0; omega
  | ⟨1, _⟩ => show win5_3.index t (1 : Fin 2) * 128 + 1 * q.val = q.val; omega

theorem iblk_bn5_4 (c : Dev nD) (t : Fin cfg5.N) (q : Fin 128) :
    (iblk5 V c 4 t : Vec Ideal S1x128 .f32) (ix2 (0 : Fin 1) q) = (V c main_v125 : S1x128.Idx → EReal) (ix2 (0 : Fin 1) q) := by
  obtain ⟨e0, e1, f10, f11, f20, f21, f30, f31, f40, f41, f50, f51, e4, e5⟩ := idx_bn5 t
  unfold iblk5
  rw [View.read_apply]
  show V c main_v125 _ = V c main_v125 _
  refine congrArg _ (funext fun a => Fin.ext ?_)
  match a with
  | ⟨0, _⟩ => show win5_4.index t (0 : Fin 2) * 1 + 1 * 0 = 0; omega
  | ⟨1, _⟩ => show win5_4.index t (1 : Fin 2) * 128 + 1 * q.val = q.val; omega

theorem iblk_bn5_5 (c : Dev nD) (t : Fin cfg5.N) (q : Fin 128) :
    (iblk5 V c 5 t : Vec Ideal S1x128 .f32) (ix2 (0 : Fin 1) q) = (V c main_v126 : S1x128.Idx → EReal) (ix2 (0 : Fin 1) q) := by
  obtain ⟨e0, e1, f10, f11, f20, f21, f30, f31, f40, f41, f50, f51, e4, e5⟩ := idx_bn5 t
  unfold iblk5
  rw [View.read_apply]
  show V c main_v126 _ = V c main_v126 _
  refine congrArg _ (funext fun a => Fin.ext ?_)
  match a with
  | ⟨0, _⟩ => show win5_5.index t (0 : Fin 2) * 1 + 1 * 0 = 0; omega
  | ⟨1, _⟩ => show win5_5.index t (1 : Fin 2) * 128 + 1 * q.val = q.val; omega

/-- What point t writes back is block t of the layer function of the six arrays as the region finds them. -/
theorem flushed_bn5 (c : Dev nD) (t : Fin cfg5.N) :
    (dat5 V c).flushed 6 t = ((cfg5.win 6).blk t).view.read (Elt Ideal)
      (GcnLayers.bnRelu (M := 100000) (N := 128) (V c main_v111) (V c main_v122) (V c main_v123) (V c main_v124) (V c main_v125) (V c main_v126)) := by
  show (cfg5.win 6).cut (grid5.coords t) ((dat5 V c).after 6 t) = _
  rw [after5_6]
  unfold out5_6
  rw [View.canon_unit_zero hz_bn5]
  simp only [View.ld_unit_zero (S := S5000x128) hz_bn5, View.ld_unit_zero (S := S1x128) hz_bn5]
  rw [pay_bn5]
  funext j
  obtain ⟨r, q, rfl⟩ : ∃ (r : Fin 5000) (q : Fin 128), j = ix2 r q := ⟨j 0, j 1, eq_ix2 j⟩
  have hlt : t.val < 20 := by have h := t.isLt; have hN : cfg5.N = 20 := N_5; omega
  show GcnLayers.bnRelu (iblk5 V c 0 t) (iblk5 V c 1 t) (iblk5 V c 2 t) (iblk5 V c 3 t) (iblk5 V c 4 t) (iblk5 V c 5 t) (ix2 r q)
    = GcnLayers.bnRelu (V c main_v111) (V c main_v122) (V c main_v123) (V c main_v124) (V c main_v125) (V c main_v126) (((cfg5.win 6).blk t).view.emb (ix2 r q))
  rw [emb_out_bn5 t r q ⟨t.val * 5000 + r.val, by have := r.isLt; omega⟩ rfl, GcnLayers.bnRelu_apply, GcnLayers.bnRelu_apply,
    iblk_bn5_0 V c t r q ⟨t.val * 5000 + r.val, by have := r.isLt; omega⟩ rfl,
    iblk_bn5_1 V c t q, iblk_bn5_2 V c t q, iblk_bn5_3 V c t q, iblk_bn5_4 V c t q, iblk_bn5_5 V c t q]

/-- An index of the output array is in point t's block iff each coordinate is in the block's range. -/
theorem mem_blk_bn5 (t : Fin cfg5.N) (i : S100000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v127).slice (win5_6.rect t)).set ↔ _
  rw [View.set_slice_whole, Rect.mem_set_unit]
  exact Iff.rfl

/-- The output array after the region: the layer function of the six arrays as the region finds them. Row i lies in
    the block of point i / 5000. -/
theorem final_bn5 (c : Dev nD) :
    (dat5 V c).arrAt 6 cfg5.N
      = GcnLayers.bnRelu (M := 100000) (N := 128) (V c main_v111) (V c main_v122) (V c main_v123) (V c main_v124) (V c main_v125) (V c main_v126) :=
  (dat5 V c).arrAt_eq_of_cover 6 _ (fun t _ => flushed_bn5 V c t) fun i => by
    have hi0 : (i 0).val < 100000 := (i 0).isLt
    have hi1 : (i 1).val < 128 := (i 1).isLt
    have hN : cfg5.N = 20 := N_5
    refine ⟨⟨(i 0).val / 5000, by omega⟩, flush5_6 _, ?_⟩
    obtain ⟨e0, e1, f10, f11, f20, f21, f30, f31, f40, f41, f50, f51, e4, e5⟩ := idx_bn5 ⟨(i 0).val / 5000, by omega⟩
    rw [mem_blk_bn5]
    intro a
    match a with
    | ⟨0, _⟩ =>
      show win5_6.index _ (0 : Fin 2) * 5000 ≤ (i 0).val ∧ (i 0).val < win5_6.index _ (0 : Fin 2) * 5000 + 5000
      rw [e4]; show (i 0).val / 5000 * 5000 ≤ (i 0).val ∧ (i 0).val < (i 0).val / 5000 * 5000 + 5000; omega
    | ⟨1, _⟩ =>
      show win5_6.index _ (1 : Fin 2) * 128 ≤ (i 1).val ∧ (i 1).val < win5_6.index _ (1 : Fin 2) * 128 + 128
      rw [e5]; omega

end Cert.KernelIdeal.Bridge

end
-- ==== Proof.RegionCls6.lean ====
/-
  The classifier: the pipelined matrix product, bias and row-wise log-softmax kernel as one function of its three
  arrays.

  The grid has twenty points; point t reads rows 5000 t … 5000 t + 4999 of the activations, the whole [128, 2] weight
  matrix and the one bias row, and writes the same rows of the output. Every entry of the output depends on one row
  of the activations only, so the twenty write-backs are the blocks of one array and they cover it.
-/
import proofs.«144072_j32246614458736_1_alg».proof.Proof.Gen.KernelIdeal.Frame
import proofs.«144072_j32246614458736_1_alg».proof.Proof.Spec
import proofs.«144072_j32246614458736_1_alg».proof.Proof.LibPlainDot
import proofs.«144072_j32246614458736_1_alg».proof.Proof.LibRowMax
import Idealize.ShloMosaic.Lib.Pipeline.Value
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

variable (V : (c : Dev nD) → (b : Ref sig .tc) → Buf (Elt Ideal) ((c : Thread nD τ).loc b))

/-- Logits h W + b, then the log-softmax of each row. -/
abbrev clsFn {M : Nat} (h : (⟨2, ![M, 128]⟩ : Shape).Idx → EReal) (w : (⟨2, ![128, 2]⟩ : Shape).Idx → EReal)
    (b : (⟨2, ![1, 2]⟩ : Shape).Idx → EReal) : (⟨2, ![M, 2]⟩ : Shape).Idx → EReal :=
  fun i => RowMax.logSoftmaxRow (RowMax.biased (GcnLayers.mm h w) b) (i 0) (i 1)

theorem cls_log_apply {s : Shape} (x : FVec Ideal s .f32) (i : s.Idx) : log x i = Ideal.log (x i) := rfl
theorem cls_exp_apply {s : Shape} (x : FVec Ideal s .f32) (i : s.Idx) : exp x i = Ideal.exp (x i) := rfl

theorem hz_cls : (![0, 0] : Fin 2 → Nat) = fun _ => 0 := funext fun a => by fin_cases a <;> rfl

/-- The body's stored value: the log-softmax of the rows of the biased product of its loaded blocks. -/
theorem pay_cls (x0 : Vec Ideal S5000x128 .f32) (x1 : Vec Ideal S128x2 .f32) (x2 : Vec Ideal S1x2 .f32) :
    k6_pay1 (F := Ideal) x0 x1 x2 = clsFn (M := 5000) x0 x1 x2 := by
  funext j
  obtain ⟨r, q, rfl⟩ : ∃ (r : Fin 5000) (q : Fin 2), j = ix2 r q := ⟨j 0, j 1, eq_ix2 j⟩
  unfold k6_pay1
  simp only [shapeCast_self]
  have hY : (addf (matmul dot_S5000x128_S128x2_S5000x2_1_0_0_1_n_n none (truncf .bf16 x0 bitsLt_bf16_f32) (truncf .bf16 x1 bitsLt_bf16_f32)
        (constant S5000x2 .f32 0x00000000#32)) (broadcastTo S5000x2 x2 broadcasts_S1x2_S5000x2) : FVec Ideal S5000x2 .f32)
      = RowMax.biased (GcnLayers.mm (M := 5000) (K := 128) (N := 2) x0 x1) x2 := by
    funext i
    obtain ⟨p, c, rfl⟩ : ∃ (p : Fin 5000) (c : Fin 2), i = ix2 p c := ⟨i 0, i 1, eq_ix2 i⟩
    rw [addf_apply, broadcastTo_1b_ab_apply, RowMax.biased_apply]
    exact congrArg (· + x2 (ix2 (0 : Fin 1) c)) (PlainDot.matmul_zero_apply none x0 x1 p c)
  rw [hY]
  show _ = RowMax.logSoftmaxRow (RowMax.biased (GcnLayers.mm (M := 5000) (K := 128) (N := 2) x0 x1) x2) r q
  obtain ⟨Y, hYd⟩ : ∃ Y : FVec Ideal S5000x2 .f32, Y = RowMax.biased (GcnLayers.mm (M := 5000) (K := 128) (N := 2) x0 x1) x2 := ⟨_, rfl⟩
  rw [← hYd]
  have hmax : ∀ p : Fin 5000, multiReduction .maximumf [1] S5000 Y 0xFF800000#32 reduces_S5000x2_S5000 (.inl rfl) rfl (ix1 p)
      = RowMax.rowMax Y p := fun p => RowMax.multiReduction_maximumf_rows_lit Y reduces_S5000x2_S5000 (.inl rfl) rfl p
  have hsh : ∀ (p : Fin 5000) (c : Fin 2),
      subf Y (broadcastTo S5000x2 (shapeCast S5000x1 (multiReduction .maximumf [1] S5000 Y 0xFF800000#32 reduces_S5000x2_S5000
        (.inl rfl) rfl) shapeCasts_S5000_S5000x1) broadcasts_S5000x1_S5000x2) (ix2 p c) = Y (ix2 p c) - RowMax.rowMax Y p :=
    fun p c => by rw [subf_apply, RowMax.keptCol_broadcast_apply, hmax]
  rw [subf_apply, hsh, RowMax.broadcastTo_a1_ab_apply, cls_log_apply, RowMax.shapeCast_a_a1_apply]
  have hsum : multiReduction .add [1] S5000 (exp (subf Y (broadcastTo S5000x2 (shapeCast S5000x1 (multiReduction .maximumf [1] S5000 Y
        0xFF800000#32 reduces_S5000x2_S5000 (.inl rfl) rfl) shapeCasts_S5000_S5000x1) broadcasts_S5000x1_S5000x2)))
        0x00000000#32 reduces_S5000x2_S5000 (.inl rfl) rfl (ix1 r)
      = ∑ c : Fin 2, Ideal.exp (Y (ix2 r c) - RowMax.rowMax Y r) :=
    (RowMax.multiReduction_add_rows_lit _ reduces_S5000x2_S5000 (.inl rfl) rfl r).trans
      (Finset.sum_congr rfl fun c _ => by rw [cls_exp_apply, hsh])
  rw [hsum]
  rfl

/-- The printed index maps over the grid: the activations' and the output's block is row block t, the weights' and the
    bias row's the one block. -/
theorem idx_cls : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- A row-block index of the output, embedded in the array, is that row of the array. -/
theorem emb_out_cls (t : Fin cfg6.N) (r : Fin 5000) (q : Fin 2) (R : Fin 100000) (hR : R.val = t.val * 5000 + r.val) :
    ((cfg6.win 3).blk t).view.emb (ix2 r q) = (ix2 R q : S100000x2.Idx) := by
  obtain ⟨e0, e1, f10, f11, f20, f21, e4, e5⟩ := idx_cls t
  funext a
  apply Fin.ext
  match a with
  | ⟨0, _⟩ => show win6_3.index t (0 : Fin 2) * 5000 + 1 * r.val = R.val; omega
  | ⟨1, _⟩ => show win6_3.index t (1 : Fin 2) * 2 + 1 * q.val = q.val; omega

/-- The activations' block at point t is rows 5000 t … of the array. -/
theorem iblk_cls_0 (c : Dev nD) (t : Fin cfg6.N) (r : Fin 5000) (k : Fin 128) (R : Fin 100000)
    (hR : R.val = t.val * 5000 + r.val) :
    (iblk6 V c 0 t : Vec Ideal S5000x128 .f32) (ix2 r k) = (V c main_v127 : S100000x128.Idx → EReal) (ix2 R k) := by
  obtain ⟨e0, e1, f10, f11, f20, f21, e4, e5⟩ := idx_cls t
  unfold iblk6
  rw [View.read_apply]
  show V c main_v127 _ = V c main_v127 _
  refine congrArg _ (funext fun a => Fin.ext ?_)
  match a with
  | ⟨0, _⟩ => show win6_0.index t (0 : Fin 2) * 5000 + 1 * r.val = R.val; omega
  | ⟨1, _⟩ => show win6_0.index t (1 : Fin 2) * 128 + 1 * k.val = k.val; omega

/-- The weights' block at every point is the whole matrix. -/
theorem iblk_cls_1 (c : Dev nD) (t : Fin cfg6.N) (k : Fin 128) (q : Fin 2) :
    (iblk6 V c 1 t : Vec Ideal S128x2 .f32) (ix2 k q) = (V c main_arg8 : S128x2.Idx → EReal) (ix2 k q) := by
  obtain ⟨e0, e1, f10, f11, f20, f21, e4, e5⟩ := idx_cls t
  unfold iblk6
  rw [View.read_apply]
  show V c main_arg8 _ = V c main_arg8 _
  refine congrArg _ (funext fun a => Fin.ext ?_)
  match a with
  | ⟨0, _⟩ => show win6_1.index t (0 : Fin 2) * 128 + 1 * k.val = k.val; omega
  | ⟨1, _⟩ => show win6_1.index t (1 : Fin 2) * 2 + 1 * q.val = q.val; omega

/-- The bias row's block at every point is the whole row. -/
theorem iblk_cls_2 (c : Dev nD) (t : Fin cfg6.N) (q : Fin 2) :
    (iblk6 V c 2 t : Vec Ideal S1x2 .f32) (ix2 (0 : Fin 1) q) = (V c main_v128 : S1x2.Idx → EReal) (ix2 (0 : Fin 1) q) := by
  obtain ⟨e0, e1, f10, f11, f20, f21, e4, e5⟩ := idx_cls t
  unfold iblk6
  rw [View.read_apply]
  show V c main_v128 _ = V c main_v128 _
  refine congrArg _ (funext fun a => Fin.ext ?_)
  match a with
  | ⟨0, _⟩ => show win6_2.index t (0 : Fin 2) * 1 + 1 * 0 = 0; omega
  | ⟨1, _⟩ => show win6_2.index t (1 : Fin 2) * 2 + 1 * q.val = q.val; omega

/-- What point t writes back is block t of the classifier function of the three arrays as the region finds them:
    a row of the biased product of a row block is that row of the biased product of the array. -/
theorem flushed_cls (c : Dev nD) (t : Fin cfg6.N) :
    (dat6 V c).flushed 3 t = ((cfg6.win 3).blk t).view.read (Elt Ideal)
      (clsFn (M := 100000) (V c main_v127) (V c main_arg8) (V c main_v128)) := by
  show (cfg6.win 3).cut (grid6.coords t) ((dat6 V c).after 3 t) = _
  rw [after6_3]
  unfold out6_3
  rw [View.canon_unit_zero hz_cls]
  simp only [View.ld_unit_zero (S := S5000x128) hz_cls, View.ld_unit_zero (S := S128x2) hz_cls, View.ld_unit_zero (S := S1x2) hz_cls]
  rw [pay_cls]
  funext j
  obtain ⟨r, q, rfl⟩ : ∃ (r : Fin 5000) (q : Fin 2), j = ix2 r q := ⟨j 0, j 1, eq_ix2 j⟩
  have hlt : t.val < 20 := by have h := t.isLt; have hN : cfg6.N = 20 := N_6; omega
  show clsFn (iblk6 V c 0 t) (iblk6 V c 1 t) (iblk6 V c 2 t) (ix2 r q)
    = clsFn (M := 100000) (V c main_v127) (V c main_arg8) (V c main_v128) (((cfg6.win 3).blk t).view.emb (ix2 r q))
  rw [emb_out_cls t r q ⟨t.val * 5000 + r.val, by have := r.isLt; omega⟩ rfl]
  refine RowMax.logSoftmaxRow_congr _ _ r ⟨t.val * 5000 + r.val, by have := r.isLt; omega⟩ (fun q' => ?_) q
  rw [RowMax.biased_apply, RowMax.biased_apply, GcnLayers.mm_apply, GcnLayers.mm_apply, iblk_cls_2 V c t q']
  refine congrArg (· + (V c main_v128 : S1x2.Idx → EReal) (ix2 (0 : Fin 1) q')) (Finset.sum_congr rfl fun k _ => ?_)
  rw [iblk_cls_0 V c t r k ⟨t.val * 5000 + r.val, by have := r.isLt; omega⟩ rfl, iblk_cls_1 V c t k q']

/-- An index of the output array is in point t's block iff each coordinate is in the block's range. -/
theorem mem_blk_cls (t : Fin cfg6.N) (i : S100000x2.Idx) :
    i ∈ ((cfg6.win 3).blk t).view.set ↔ ∀ a : Fin 2, win6_3.index t a * S5000x2.size a ≤ (i a).val
      ∧ (i a).val < win6_3.index t a * S5000x2.size a + S5000x2.size a := by
  show i ∈ ((View.whole main_v129).slice (win6_3.rect t)).set ↔ _
  rw [View.set_slice_whole, Rect.mem_set_unit]
  exact Iff.rfl

/-- The output array after the region: the classifier function of the three arrays as the region finds them. -/
theorem final_cls (c : Dev nD) :
    (dat6 V c).arrAt 3 cfg6.N = clsFn (M := 100000) (V c main_v127) (V c main_arg8) (V c main_v128) :=
  (dat6 V c).arrAt_eq_of_cover 3 _ (fun t _ => flushed_cls V c t) fun i => by
    have hi0 : (i 0).val < 100000 := (i 0).isLt
    have hi1 : (i 1).val < 2 := (i 1).isLt
    have hN : cfg6.N = 20 := N_6
    refine ⟨⟨(i 0).val / 5000, by omega⟩, flush6_3 _, ?_⟩
    obtain ⟨e0, e1, f10, f11, f20, f21, e4, e5⟩ := idx_cls ⟨(i 0).val / 5000, by omega⟩
    rw [mem_blk_cls]
    intro a
    match a with
    | ⟨0, _⟩ =>
      show win6_3.index _ (0 : Fin 2) * 5000 ≤ (i 0).val ∧ (i 0).val < win6_3.index _ (0 : Fin 2) * 5000 + 5000
      rw [e4]; show (i 0).val / 5000 * 5000 ≤ (i 0).val ∧ (i 0).val < (i 0).val / 5000 * 5000 + 5000; omega
    | ⟨1, _⟩ =>
      show win6_3.index _ (1 : Fin 2) * 2 ≤ (i 1).val ∧ (i 1).val < win6_3.index _ (1 : Fin 2) * 2 + 2
      rw [e5]; omega

end Cert.KernelIdeal.Bridge

end
-- ==== Proof.Levels.lean ====
/-
  The idealized kernel's result array, boundary by boundary.

  The program alternates stretches of host operations with seven pipelined kernels. At each boundary the buffers that
  matter hold what the reference computes at the corresponding stage: the edge list's source, target and weight
  vectors and the parameter stacks are carried unchanged; a dense kernel leaves the matrix product of its operands; the
  host stretch after it applies the reference's own gather, scaling and scatter-add to the same operands; a
  normalisation kernel leaves the layer function of the aggregated array and the parameter rows; and the classifier
  leaves the row-wise log-softmax of the biased logits.
-/
import proofs.«144072_j32246614458736_1_alg».proof.Proof.Gen.KernelIdeal.Frame
import proofs.«144072_j32246614458736_1_alg».proof.Proof.RefRead
import proofs.«144072_j32246614458736_1_alg».proof.Proof.RefStages
import proofs.«144072_j32246614458736_1_alg».proof.Proof.RegionMM0
import proofs.«144072_j32246614458736_1_alg».proof.Proof.RegionMM2
import proofs.«144072_j32246614458736_1_alg».proof.Proof.RegionMM4
import proofs.«144072_j32246614458736_1_alg».proof.Proof.RegionBN1
import proofs.«144072_j32246614458736_1_alg».proof.Proof.RegionBN3
import proofs.«144072_j32246614458736_1_alg».proof.Proof.RegionBN5
import proofs.«144072_j32246614458736_1_alg».proof.Proof.RegionCls6
import Idealize.ShloMosaic.Lib.StableHlo.Run

set_option maxRecDepth 16384

noncomputable section

namespace Cert.KernelIdeal.Bridge

open Cert.KernelIdeal Cert.KernelIdeal.Gen
open Cert.ReferenceIdeal.Read
open Idealize.ShloMosaic Idealize.ShloMosaic.TcCoe Idealize.SL.Sem Idealize.ShloMosaic.ValueIdx Idealize.ShloMosaic.StableHlo

variable (m : (ℓ : Loc nD τ sig) → Buf (Elt Ideal) ℓ) (ρ : Dev nD → PrngReg) (c : Dev nD)

/-- The edge list's row followed by the self loops, as a function of the two pieces: a form the evaluation of a host
    stretch can rewrite under. -/
def catK {α : Type} (a : S1600000.Idx → α) (b : S100000.Idx → α) : S1700000.Idx → α :=
  concatenate S1700000 0 [⟨S1600000, a⟩, ⟨S100000, b⟩] concatenates_S1600000_S100000_S1700000_d0
theorem catK_eq {α : Type} (a : S1600000.Idx → α) (b : S100000.Idx → α) :
    concatenate S1700000 0 [⟨S1600000, a⟩, ⟨S100000, b⟩] concatenates_S1600000_S100000_S1700000_d0 = catK a b := rfl

/-- One buffer after a stretch of host operations: each operation's result at its own buffer is its function of its
    operands' contents, and any other buffer keeps what it held. -/
macro "host_eval" : tactic =>
  `(tactic| simp (disch := decide) only [after_cons, after_nil, nullary_result', unary_result', binary_result',
      ternary_result', quaternary_result', reshape_result', nary4_result', nary_result', unaryIndexed_result',
      binaryIndexed_result', nullary_result_ne', unary_result_ne', binary_result_ne', ternary_result_ne',
      quaternary_result_ne', reshape_result_ne', nary_result_ne', unaryIndexed_result_ne', binaryIndexed_result_ne',
      catK_eq])

/-! The ten argument arrays as launched. -/
abbrev A0 := m ((c.tc : Thread nD τ).loc main_arg0)
abbrev A1 := m ((c.tc : Thread nD τ).loc main_arg1)
abbrev A2 := m ((c.tc : Thread nD τ).loc main_arg2)
abbrev A3 := m ((c.tc : Thread nD τ).loc main_arg3)
abbrev A4 := m ((c.tc : Thread nD τ).loc main_arg4)
abbrev A5 := m ((c.tc : Thread nD τ).loc main_arg5)
abbrev A6 := m ((c.tc : Thread nD τ).loc main_arg6)
abbrev A7 := m ((c.tc : Thread nD τ).loc main_arg7)
abbrev A8 := m ((c.tc : Thread nD τ).loc main_arg8)
abbrev A9 := m ((c.tc : Thread nD τ).loc main_arg9)

/-! ## Boundaries 1 to 3: the host operations before the first kernel

The first stretch builds the source and target vectors (the edge list's rows followed by the self loops), the degree
vector, its positivity mask and its reciprocal square root; the second, an outlined select, the normalisation vector
per node; the third, the normalisation weight per edge and the first weight matrix. Each stretch is read from the
boundary before it. -/

theorem w1_v3 : W1 m ρ c (Proc.devRef .tc main_v3) = val_main_v3 (F := Ideal) (A1 m c) := by
  show StableHlo.after hostOps0 (W0 m ρ c) (Proc.devRef .tc main_v3) = _
  host_eval <;> rfl
theorem w1_v6 : W1 m ρ c (Proc.devRef .tc main_v6) = val_main_v6 (F := Ideal) (A1 m c) := by
  show StableHlo.after hostOps0 (W0 m ρ c) (Proc.devRef .tc main_v6) = _
  host_eval <;> rfl
theorem w1_v12 : W1 m ρ c (Proc.devRef .tc main_v12) = val_main_v12 (F := Ideal) (A1 m c) := by
  show StableHlo.after hostOps0 (W0 m ρ c) (Proc.devRef .tc main_v12) = _
  host_eval <;> rfl
theorem w1_v15 : W1 m ρ c (Proc.devRef .tc main_v15) = val_main_v15 (F := Ideal) (A1 m c) := by
  show StableHlo.after hostOps0 (W0 m ρ c) (Proc.devRef .tc main_v15) = _
  host_eval <;> rfl
theorem w1_cst3 : W1 m ρ c (Proc.devRef .tc main_cst_3) = val_main_cst_3 (F := Ideal) := by
  show StableHlo.after hostOps0 (W0 m ρ c) (Proc.devRef .tc main_cst_3) = _
  host_eval <;> rfl
theorem w1_arg0 : W1 m ρ c (Proc.devRef .tc main_arg0) = (A0 m c) := by
  show StableHlo.after hostOps0 (W0 m ρ c) (Proc.devRef .tc main_arg0) = _
  host_eval <;> rfl
theorem w1_arg2 : W1 m ρ c (Proc.devRef .tc main_arg2) = (A2 m c) := by
  show StableHlo.after hostOps0 (W0 m ρ c) (Proc.devRef .tc main_arg2) = _
  host_eval <;> rfl
theorem w1_arg3 : W1 m ρ c (Proc.devRef .tc main_arg3) = (A3 m c) := by
  show StableHlo.after hostOps0 (W0 m ρ c) (Proc.devRef .tc main_arg3) = _
  host_eval <;> rfl
theorem w1_arg4 : W1 m ρ c (Proc.devRef .tc main_arg4) = (A4 m c) := by
  show StableHlo.after hostOps0 (W0 m ρ c) (Proc.devRef .tc main_arg4) = _
  host_eval <;> rfl
theorem w1_arg5 : W1 m ρ c (Proc.devRef .tc main_arg5) = (A5 m c) := by
  show StableHlo.after hostOps0 (W0 m ρ c) (Proc.devRef .tc main_arg5) = _
  host_eval <;> rfl
theorem w1_arg6 : W1 m ρ c (Proc.devRef .tc main_arg6) = (A6 m c) := by
  show StableHlo.after hostOps0 (W0 m ρ c) (Proc.devRef .tc main_arg6) = _
  host_eval <;> rfl
theorem w1_arg7 : W1 m ρ c (Proc.devRef .tc main_arg7) = (A7 m c) := by
  show StableHlo.after hostOps0 (W0 m ρ c) (Proc.devRef .tc main_arg7) = _
  host_eval <;> rfl

/-! A buffer whose declared type is the value's type: the transport between the two is the identity. These are the
    buffers of the outlined select. -/
theorem ofBuf_cst3 (v : (⟨S_, .f32⟩ : BufTy).Contents (Elt Ideal)) :
    (TRef.of (sig := sig) (T := ⟨S_, .f32⟩) main_cst_3).ofBuf v = v := rfl
theorem toBuf_c0v0 (v : (⟨S_, .f32⟩ : BufTy).Contents (Elt Ideal)) :
    (TRef.of (sig := sig) (T := ⟨S_, .f32⟩) main_call0_v0).toBuf v = v := rfl
theorem ofBuf_c0v0 (v : (⟨S_, .f32⟩ : BufTy).Contents (Elt Ideal)) :
    (TRef.of (sig := sig) (T := ⟨S_, .f32⟩) main_call0_v0).ofBuf v = v := rfl
theorem toBuf_c0v1 (v : (⟨S100000, .f32⟩ : BufTy).Contents (Elt Ideal)) :
    (TRef.of (sig := sig) (T := ⟨S100000, .f32⟩) main_call0_v1).toBuf v = v := rfl
theorem ofBuf_c0v1 (v : (⟨S100000, .f32⟩ : BufTy).Contents (Elt Ideal)) :
    (TRef.of (sig := sig) (T := ⟨S100000, .f32⟩) main_call0_v1).ofBuf v = v := rfl
theorem ofBuf_v12 (v : (⟨S100000, .i1⟩ : BufTy).Contents (Elt Ideal)) :
    (TRef.of (sig := sig) (T := ⟨S100000, .i1⟩) main_v12).ofBuf v = v := rfl
theorem ofBuf_v15 (v : (⟨S100000, .f32⟩ : BufTy).Contents (Elt Ideal)) :
    (TRef.of (sig := sig) (T := ⟨S100000, .f32⟩) main_v15).ofBuf v = v := rfl
theorem toBuf_v16 (v : (⟨S100000, .f32⟩ : BufTy).Contents (Elt Ideal)) :
    (TRef.of (sig := sig) (T := ⟨S100000, .f32⟩) main_v16).toBuf v = v := rfl

/-- The outlined select: where the degree is positive its reciprocal square root, elsewhere zero. -/
theorem w2_v16 : W2 m ρ c (Proc.devRef .tc main_v16) = val_main_v16 (F := Ideal) (A1 m c) := by
  show StableHlo.after hostOps0_1 (W1 m ρ c) (Proc.devRef .tc main_v16) = _
  generalize hV : W1 m ρ c = V1
  host_eval
  subst hV
  rw [toBuf_v16, ofBuf_v12, ofBuf_v15, ofBuf_c0v1, toBuf_c0v1, ofBuf_c0v0, toBuf_c0v0, ofBuf_cst3]
  rw [w1_v12 m ρ c, w1_v15 m ρ c, w1_cst3 m ρ c]
  rfl
theorem w2_v3 : W2 m ρ c (Proc.devRef .tc main_v3) = val_main_v3 (F := Ideal) (A1 m c) :=
  (by show StableHlo.after hostOps0_1 (W1 m ρ c) (Proc.devRef .tc main_v3) = _; host_eval <;> rfl :
    W2 m ρ c (Proc.devRef .tc main_v3) = W1 m ρ c (Proc.devRef .tc main_v3)).trans (w1_v3 m ρ c)
theorem w2_v6 : W2 m ρ c (Proc.devRef .tc main_v6) = val_main_v6 (F := Ideal) (A1 m c) :=
  (by show StableHlo.after hostOps0_1 (W1 m ρ c) (Proc.devRef .tc main_v6) = _; host_eval <;> rfl :
    W2 m ρ c (Proc.devRef .tc main_v6) = W1 m ρ c (Proc.devRef .tc main_v6)).trans (w1_v6 m ρ c)
theorem w2_arg0 : W2 m ρ c (Proc.devRef .tc main_arg0) = (A0 m c) :=
  (by show StableHlo.after hostOps0_1 (W1 m ρ c) (Proc.devRef .tc main_arg0) = _; host_eval <;> rfl :
    W2 m ρ c (Proc.devRef .tc main_arg0) = W1 m ρ c (Proc.devRef .tc main_arg0)).trans (w1_arg0 m ρ c)
theorem w2_arg2 : W2 m ρ c (Proc.devRef .tc main_arg2) = (A2 m c) :=
  (by show StableHlo.after hostOps0_1 (W1 m ρ c) (Proc.devRef .tc main_arg2) = _; host_eval <;> rfl :
    W2 m ρ c (Proc.devRef .tc main_arg2) = W1 m ρ c (Proc.devRef .tc main_arg2)).trans (w1_arg2 m ρ c)
theorem w2_arg3 : W2 m ρ c (Proc.devRef .tc main_arg3) = (A3 m c) :=
  (by show StableHlo.after hostOps0_1 (W1 m ρ c) (Proc.devRef .tc main_arg3) = _; host_eval <;> rfl :
    W2 m ρ c (Proc.devRef .tc main_arg3) = W1 m ρ c (Proc.devRef .tc main_arg3)).trans (w1_arg3 m ρ c)
theorem w2_arg4 : W2 m ρ c (Proc.devRef .tc main_arg4) = (A4 m c) :=
  (by show StableHlo.after hostOps0_1 (W1 m ρ c) (Proc.devRef .tc main_arg4) = _; host_eval <;> rfl :
    W2 m ρ c (Proc.devRef .tc main_arg4) = W1 m ρ c (Proc.devRef .tc main_arg4)).trans (w1_arg4 m ρ c)
theorem w2_arg5 : W2 m ρ c (Proc.devRef .tc main_arg5) = (A5 m c) :=
  (by show StableHlo.after hostOps0_1 (W1 m ρ c) (Proc.devRef .tc main_arg5) = _; host_eval <;> rfl :
    W2 m ρ c (Proc.devRef .tc main_arg5) = W1 m ρ c (Proc.devRef .tc main_arg5)).trans (w1_arg5 m ρ c)
theorem w2_arg6 : W2 m ρ c (Proc.devRef .tc main_arg6) = (A6 m c) :=
  (by show StableHlo.after hostOps0_1 (W1 m ρ c) (Proc.devRef .tc main_arg6) = _; host_eval <;> rfl :
    W2 m ρ c (Proc.devRef .tc main_arg6) = W1 m ρ c (Proc.devRef .tc main_arg6)).trans (w1_arg6 m ρ c)
theorem w2_arg7 : W2 m ρ c (Proc.devRef .tc main_arg7) = (A7 m c) :=
  (by show StableHlo.after hostOps0_1 (W1 m ρ c) (Proc.devRef .tc main_arg7) = _; host_eval <;> rfl :
    W2 m ρ c (Proc.devRef .tc main_arg7) = W1 m ρ c (Proc.devRef .tc main_arg7)).trans (w1_arg7 m ρ c)

theorem w3_v3 : W3 m ρ c (Proc.devRef .tc main_v3) = val_main_v3 (F := Ideal) (A1 m c) :=
  (by show StableHlo.after hostOps0_2 (W2 m ρ c) (Proc.devRef .tc main_v3) = _; host_eval <;> rfl :
    W3 m ρ c (Proc.devRef .tc main_v3) = W2 m ρ c (Proc.devRef .tc main_v3)).trans (w2_v3 m ρ c)
theorem w3_v6 : W3 m ρ c (Proc.devRef .tc main_v6) = val_main_v6 (F := Ideal) (A1 m c) :=
  (by show StableHlo.after hostOps0_2 (W2 m ρ c) (Proc.devRef .tc main_v6) = _; host_eval <;> rfl :
    W3 m ρ c (Proc.devRef .tc main_v6) = W2 m ρ c (Proc.devRef .tc main_v6)).trans (w2_v6 m ρ c)
theorem w3_arg0 : W3 m ρ c (Proc.devRef .tc main_arg0) = (A0 m c) :=
  (by show StableHlo.after hostOps0_2 (W2 m ρ c) (Proc.devRef .tc main_arg0) = _; host_eval <;> rfl :
    W3 m ρ c (Proc.devRef .tc main_arg0) = W2 m ρ c (Proc.devRef .tc main_arg0)).trans (w2_arg0 m ρ c)
theorem w3_arg2 : W3 m ρ c (Proc.devRef .tc main_arg2) = (A2 m c) :=
  (by show StableHlo.after hostOps0_2 (W2 m ρ c) (Proc.devRef .tc main_arg2) = _; host_eval <;> rfl :
    W3 m ρ c (Proc.devRef .tc main_arg2) = W2 m ρ c (Proc.devRef .tc main_arg2)).trans (w2_arg2 m ρ c)
theorem w3_arg3 : W3 m ρ c (Proc.devRef .tc main_arg3) = (A3 m c) :=
  (by show StableHlo.after hostOps0_2 (W2 m ρ c) (Proc.devRef .tc main_arg3) = _; host_eval <;> rfl :
    W3 m ρ c (Proc.devRef .tc main_arg3) = W2 m ρ c (Proc.devRef .tc main_arg3)).trans (w2_arg3 m ρ c)
theorem w3_arg4 : W3 m ρ c (Proc.devRef .tc main_arg4) = (A4 m c) :=
  (by show StableHlo.after hostOps0_2 (W2 m ρ c) (Proc.devRef .tc main_arg4) = _; host_eval <;> rfl :
    W3 m ρ c (Proc.devRef .tc main_arg4) = W2 m ρ c (Proc.devRef .tc main_arg4)).trans (w2_arg4 m ρ c)
theorem w3_arg5 : W3 m ρ c (Proc.devRef .tc main_arg5) = (A5 m c) :=
  (by show StableHlo.after hostOps0_2 (W2 m ρ c) (Proc.devRef .tc main_arg5) = _; host_eval <;> rfl :
    W3 m ρ c (Proc.devRef .tc main_arg5) = W2 m ρ c (Proc.devRef .tc main_arg5)).trans (w2_arg5 m ρ c)
theorem w3_arg6 : W3 m ρ c (Proc.devRef .tc main_arg6) = (A6 m c) :=
  (by show StableHlo.after hostOps0_2 (W2 m ρ c) (Proc.devRef .tc main_arg6) = _; host_eval <;> rfl :
    W3 m ρ c (Proc.devRef .tc main_arg6) = W2 m ρ c (Proc.devRef .tc main_arg6)).trans (w2_arg6 m ρ c)
theorem w3_arg7 : W3 m ρ c (Proc.devRef .tc main_arg7) = (A7 m c) :=
  (by show StableHlo.after hostOps0_2 (W2 m ρ c) (Proc.devRef .tc main_arg7) = _; host_eval <;> rfl :
    W3 m ρ c (Proc.devRef .tc main_arg7) = W2 m ρ c (Proc.devRef .tc main_arg7)).trans (w2_arg7 m ρ c)

/-- The normalisation weight per edge: the node vector gathered at the source times the same at the target. -/
theorem w3_v31 : W3 m ρ c (Proc.devRef .tc main_v31) = val_main_v31 (F := Ideal) (A1 m c) := by
  show StableHlo.after hostOps0_2 (W2 m ρ c) (Proc.devRef .tc main_v31) = _
  generalize hV : W2 m ρ c = V2
  host_eval
  subst hV
  rw [w2_v16 m ρ c, w2_v3 m ρ c, w2_v6 m ρ c]
  rfl
/-- The first weight matrix, sliced from the stack. -/
theorem w3_w : W3 m ρ c (Proc.devRef .tc main_v33) = val_main_v33 (F := Ideal) (A2 m c) := by
  show StableHlo.after hostOps0_2 (W2 m ρ c) (Proc.devRef .tc main_v33) = _
  generalize hV : W2 m ρ c = V2
  host_eval
  subst hV
  rw [w2_arg2 m ρ c]
  rfl

/-- Boundary 4: dense layer 0 leaves the reference's product. -/
theorem w4_out : W4 m ρ c (Proc.devRef .tc main_v34) = val_main_v34 (F := Ideal) (A0 m c) (A2 m c) := by
  refine (W4_arr m ρ c 2).trans ?_
  rw [final_mm0 (V3 m ρ) c]
  rw [show V3 m ρ c main_arg0 = _ from w3_arg0 m ρ c, show V3 m ρ c main_v33 = _ from w3_w m ρ c]
  exact (Cert.ReferenceIdeal.Stages.dot0 _ _).symm

/-! Boundary 4: what the earlier stretches computed from the edge list, and the parameter stacks, are still there. -/
theorem w4_v3 : W4 m ρ c (Proc.devRef .tc main_v3) = val_main_v3 (F := Ideal) (A1 m c) :=
  (W4_of_ne m ρ c main_v3 (by decide)).trans (w3_v3 m ρ c)
theorem w4_v6 : W4 m ρ c (Proc.devRef .tc main_v6) = val_main_v6 (F := Ideal) (A1 m c) :=
  (W4_of_ne m ρ c main_v6 (by decide)).trans (w3_v6 m ρ c)
theorem w4_v31 : W4 m ρ c (Proc.devRef .tc main_v31) = val_main_v31 (F := Ideal) (A1 m c) :=
  (W4_of_ne m ρ c main_v31 (by decide)).trans (w3_v31 m ρ c)
theorem w4_arg2 : W4 m ρ c (Proc.devRef .tc main_arg2) = (A2 m c) :=
  (W4_of_ne m ρ c main_arg2 (by decide)).trans (w3_arg2 m ρ c)
theorem w4_arg3 : W4 m ρ c (Proc.devRef .tc main_arg3) = (A3 m c) :=
  (W4_of_ne m ρ c main_arg3 (by decide)).trans (w3_arg3 m ρ c)
theorem w4_arg4 : W4 m ρ c (Proc.devRef .tc main_arg4) = (A4 m c) :=
  (W4_of_ne m ρ c main_arg4 (by decide)).trans (w3_arg4 m ρ c)
theorem w4_arg5 : W4 m ρ c (Proc.devRef .tc main_arg5) = (A5 m c) :=
  (W4_of_ne m ρ c main_arg5 (by decide)).trans (w3_arg5 m ρ c)
theorem w4_arg6 : W4 m ρ c (Proc.devRef .tc main_arg6) = (A6 m c) :=
  (W4_of_ne m ρ c main_arg6 (by decide)).trans (w3_arg6 m ρ c)
theorem w4_arg7 : W4 m ρ c (Proc.devRef .tc main_arg7) = (A7 m c) :=
  (W4_of_ne m ρ c main_arg7 (by decide)).trans (w3_arg7 m ρ c)

/-! Boundary 5: what the earlier stretches computed from the edge list, and the parameter stacks, are still there. -/
theorem w5_v3 : W5 m ρ c (Proc.devRef .tc main_v3) = val_main_v3 (F := Ideal) (A1 m c) :=
  (by show StableHlo.after hostOps1 (W4 m ρ c) (Proc.devRef .tc main_v3) = _; host_eval <;> rfl :
    W5 m ρ c (Proc.devRef .tc main_v3) = W4 m ρ c (Proc.devRef .tc main_v3)).trans (w4_v3 m ρ c)
theorem w5_v6 : W5 m ρ c (Proc.devRef .tc main_v6) = val_main_v6 (F := Ideal) (A1 m c) :=
  (by show StableHlo.after hostOps1 (W4 m ρ c) (Proc.devRef .tc main_v6) = _; host_eval <;> rfl :
    W5 m ρ c (Proc.devRef .tc main_v6) = W4 m ρ c (Proc.devRef .tc main_v6)).trans (w4_v6 m ρ c)
theorem w5_v31 : W5 m ρ c (Proc.devRef .tc main_v31) = val_main_v31 (F := Ideal) (A1 m c) :=
  (by show StableHlo.after hostOps1 (W4 m ρ c) (Proc.devRef .tc main_v31) = _; host_eval <;> rfl :
    W5 m ρ c (Proc.devRef .tc main_v31) = W4 m ρ c (Proc.devRef .tc main_v31)).trans (w4_v31 m ρ c)
theorem w5_arg2 : W5 m ρ c (Proc.devRef .tc main_arg2) = (A2 m c) :=
  (by show StableHlo.after hostOps1 (W4 m ρ c) (Proc.devRef .tc main_arg2) = _; host_eval <;> rfl :
    W5 m ρ c (Proc.devRef .tc main_arg2) = W4 m ρ c (Proc.devRef .tc main_arg2)).trans (w4_arg2 m ρ c)
theorem w5_arg3 : W5 m ρ c (Proc.devRef .tc main_arg3) = (A3 m c) :=
  (by show StableHlo.after hostOps1 (W4 m ρ c) (Proc.devRef .tc main_arg3) = _; host_eval <;> rfl :
    W5 m ρ c (Proc.devRef .tc main_arg3) = W4 m ρ c (Proc.devRef .tc main_arg3)).trans (w4_arg3 m ρ c)
theorem w5_arg4 : W5 m ρ c (Proc.devRef .tc main_arg4) = (A4 m c) :=
  (by show StableHlo.after hostOps1 (W4 m ρ c) (Proc.devRef .tc main_arg4) = _; host_eval <;> rfl :
    W5 m ρ c (Proc.devRef .tc main_arg4) = W4 m ρ c (Proc.devRef .tc main_arg4)).trans (w4_arg4 m ρ c)
theorem w5_arg5 : W5 m ρ c (Proc.devRef .tc main_arg5) = (A5 m c) :=
  (by show StableHlo.after hostOps1 (W4 m ρ c) (Proc.devRef .tc main_arg5) = _; host_eval <;> rfl :
    W5 m ρ c (Proc.devRef .tc main_arg5) = W4 m ρ c (Proc.devRef .tc main_arg5)).trans (w4_arg5 m ρ c)
theorem w5_arg6 : W5 m ρ c (Proc.devRef .tc main_arg6) = (A6 m c) :=
  (by show StableHlo.after hostOps1 (W4 m ρ c) (Proc.devRef .tc main_arg6) = _; host_eval <;> rfl :
    W5 m ρ c (Proc.devRef .tc main_arg6) = W4 m ρ c (Proc.devRef .tc main_arg6)).trans (w4_arg6 m ρ c)
theorem w5_arg7 : W5 m ρ c (Proc.devRef .tc main_arg7) = (A7 m c) :=
  (by show StableHlo.after hostOps1 (W4 m ρ c) (Proc.devRef .tc main_arg7) = _; host_eval <;> rfl :
    W5 m ρ c (Proc.devRef .tc main_arg7) = W4 m ρ c (Proc.devRef .tc main_arg7)).trans (w4_arg7 m ρ c)

/-! Boundary 6: what the earlier stretches computed from the edge list, and the parameter stacks, are still there. -/
theorem w6_v3 : W6 m ρ c (Proc.devRef .tc main_v3) = val_main_v3 (F := Ideal) (A1 m c) :=
  (W6_of_ne m ρ c main_v3 (by decide)).trans (w5_v3 m ρ c)
theorem w6_v6 : W6 m ρ c (Proc.devRef .tc main_v6) = val_main_v6 (F := Ideal) (A1 m c) :=
  (W6_of_ne m ρ c main_v6 (by decide)).trans (w5_v6 m ρ c)
theorem w6_v31 : W6 m ρ c (Proc.devRef .tc main_v31) = val_main_v31 (F := Ideal) (A1 m c) :=
  (W6_of_ne m ρ c main_v31 (by decide)).trans (w5_v31 m ρ c)
theorem w6_arg2 : W6 m ρ c (Proc.devRef .tc main_arg2) = (A2 m c) :=
  (W6_of_ne m ρ c main_arg2 (by decide)).trans (w5_arg2 m ρ c)
theorem w6_arg3 : W6 m ρ c (Proc.devRef .tc main_arg3) = (A3 m c) :=
  (W6_of_ne m ρ c main_arg3 (by decide)).trans (w5_arg3 m ρ c)
theorem w6_arg4 : W6 m ρ c (Proc.devRef .tc main_arg4) = (A4 m c) :=
  (W6_of_ne m ρ c main_arg4 (by decide)).trans (w5_arg4 m ρ c)
theorem w6_arg5 : W6 m ρ c (Proc.devRef .tc main_arg5) = (A5 m c) :=
  (W6_of_ne m ρ c main_arg5 (by decide)).trans (w5_arg5 m ρ c)
theorem w6_arg6 : W6 m ρ c (Proc.devRef .tc main_arg6) = (A6 m c) :=
  (W6_of_ne m ρ c main_arg6 (by decide)).trans (w5_arg6 m ρ c)
theorem w6_arg7 : W6 m ρ c (Proc.devRef .tc main_arg7) = (A7 m c) :=
  (W6_of_ne m ρ c main_arg7 (by decide)).trans (w5_arg7 m ρ c)

/-! Boundary 7: what the earlier stretches computed from the edge list, and the parameter stacks, are still there. -/
theorem w7_v3 : W7 m ρ c (Proc.devRef .tc main_v3) = val_main_v3 (F := Ideal) (A1 m c) :=
  (by show StableHlo.after hostOps2 (W6 m ρ c) (Proc.devRef .tc main_v3) = _; host_eval <;> rfl :
    W7 m ρ c (Proc.devRef .tc main_v3) = W6 m ρ c (Proc.devRef .tc main_v3)).trans (w6_v3 m ρ c)
theorem w7_v6 : W7 m ρ c (Proc.devRef .tc main_v6) = val_main_v6 (F := Ideal) (A1 m c) :=
  (by show StableHlo.after hostOps2 (W6 m ρ c) (Proc.devRef .tc main_v6) = _; host_eval <;> rfl :
    W7 m ρ c (Proc.devRef .tc main_v6) = W6 m ρ c (Proc.devRef .tc main_v6)).trans (w6_v6 m ρ c)
theorem w7_v31 : W7 m ρ c (Proc.devRef .tc main_v31) = val_main_v31 (F := Ideal) (A1 m c) :=
  (by show StableHlo.after hostOps2 (W6 m ρ c) (Proc.devRef .tc main_v31) = _; host_eval <;> rfl :
    W7 m ρ c (Proc.devRef .tc main_v31) = W6 m ρ c (Proc.devRef .tc main_v31)).trans (w6_v31 m ρ c)
theorem w7_arg2 : W7 m ρ c (Proc.devRef .tc main_arg2) = (A2 m c) :=
  (by show StableHlo.after hostOps2 (W6 m ρ c) (Proc.devRef .tc main_arg2) = _; host_eval <;> rfl :
    W7 m ρ c (Proc.devRef .tc main_arg2) = W6 m ρ c (Proc.devRef .tc main_arg2)).trans (w6_arg2 m ρ c)
theorem w7_arg3 : W7 m ρ c (Proc.devRef .tc main_arg3) = (A3 m c) :=
  (by show StableHlo.after hostOps2 (W6 m ρ c) (Proc.devRef .tc main_arg3) = _; host_eval <;> rfl :
    W7 m ρ c (Proc.devRef .tc main_arg3) = W6 m ρ c (Proc.devRef .tc main_arg3)).trans (w6_arg3 m ρ c)
theorem w7_arg4 : W7 m ρ c (Proc.devRef .tc main_arg4) = (A4 m c) :=
  (by show StableHlo.after hostOps2 (W6 m ρ c) (Proc.devRef .tc main_arg4) = _; host_eval <;> rfl :
    W7 m ρ c (Proc.devRef .tc main_arg4) = W6 m ρ c (Proc.devRef .tc main_arg4)).trans (w6_arg4 m ρ c)
theorem w7_arg5 : W7 m ρ c (Proc.devRef .tc main_arg5) = (A5 m c) :=
  (by show StableHlo.after hostOps2 (W6 m ρ c) (Proc.devRef .tc main_arg5) = _; host_eval <;> rfl :
    W7 m ρ c (Proc.devRef .tc main_arg5) = W6 m ρ c (Proc.devRef .tc main_arg5)).trans (w6_arg5 m ρ c)
theorem w7_arg6 : W7 m ρ c (Proc.devRef .tc main_arg6) = (A6 m c) :=
  (by show StableHlo.after hostOps2 (W6 m ρ c) (Proc.devRef .tc main_arg6) = _; host_eval <;> rfl :
    W7 m ρ c (Proc.devRef .tc main_arg6) = W6 m ρ c (Proc.devRef .tc main_arg6)).trans (w6_arg6 m ρ c)
theorem w7_arg7 : W7 m ρ c (Proc.devRef .tc main_arg7) = (A7 m c) :=
  (by show StableHlo.after hostOps2 (W6 m ρ c) (Proc.devRef .tc main_arg7) = _; host_eval <;> rfl :
    W7 m ρ c (Proc.devRef .tc main_arg7) = W6 m ρ c (Proc.devRef .tc main_arg7)).trans (w6_arg7 m ρ c)

/-! Boundary 8: what the earlier stretches computed from the edge list, and the parameter stacks, are still there. -/
theorem w8_v3 : W8 m ρ c (Proc.devRef .tc main_v3) = val_main_v3 (F := Ideal) (A1 m c) :=
  (W8_of_ne m ρ c main_v3 (by decide)).trans (w7_v3 m ρ c)
theorem w8_v6 : W8 m ρ c (Proc.devRef .tc main_v6) = val_main_v6 (F := Ideal) (A1 m c) :=
  (W8_of_ne m ρ c main_v6 (by decide)).trans (w7_v6 m ρ c)
theorem w8_v31 : W8 m ρ c (Proc.devRef .tc main_v31) = val_main_v31 (F := Ideal) (A1 m c) :=
  (W8_of_ne m ρ c main_v31 (by decide)).trans (w7_v31 m ρ c)
theorem w8_arg2 : W8 m ρ c (Proc.devRef .tc main_arg2) = (A2 m c) :=
  (W8_of_ne m ρ c main_arg2 (by decide)).trans (w7_arg2 m ρ c)
theorem w8_arg3 : W8 m ρ c (Proc.devRef .tc main_arg3) = (A3 m c) :=
  (W8_of_ne m ρ c main_arg3 (by decide)).trans (w7_arg3 m ρ c)
theorem w8_arg4 : W8 m ρ c (Proc.devRef .tc main_arg4) = (A4 m c) :=
  (W8_of_ne m ρ c main_arg4 (by decide)).trans (w7_arg4 m ρ c)
theorem w8_arg5 : W8 m ρ c (Proc.devRef .tc main_arg5) = (A5 m c) :=
  (W8_of_ne m ρ c main_arg5 (by decide)).trans (w7_arg5 m ρ c)
theorem w8_arg6 : W8 m ρ c (Proc.devRef .tc main_arg6) = (A6 m c) :=
  (W8_of_ne m ρ c main_arg6 (by decide)).trans (w7_arg6 m ρ c)
theorem w8_arg7 : W8 m ρ c (Proc.devRef .tc main_arg7) = (A7 m c) :=
  (W8_of_ne m ρ c main_arg7 (by decide)).trans (w7_arg7 m ρ c)

/-! Boundary 9: what the earlier stretches computed from the edge list, and the parameter stacks, are still there. -/
theorem w9_v3 : W9 m ρ c (Proc.devRef .tc main_v3) = val_main_v3 (F := Ideal) (A1 m c) :=
  (by show StableHlo.after hostOps3 (W8 m ρ c) (Proc.devRef .tc main_v3) = _; host_eval <;> rfl :
    W9 m ρ c (Proc.devRef .tc main_v3) = W8 m ρ c (Proc.devRef .tc main_v3)).trans (w8_v3 m ρ c)
theorem w9_v6 : W9 m ρ c (Proc.devRef .tc main_v6) = val_main_v6 (F := Ideal) (A1 m c) :=
  (by show StableHlo.after hostOps3 (W8 m ρ c) (Proc.devRef .tc main_v6) = _; host_eval <;> rfl :
    W9 m ρ c (Proc.devRef .tc main_v6) = W8 m ρ c (Proc.devRef .tc main_v6)).trans (w8_v6 m ρ c)
theorem w9_v31 : W9 m ρ c (Proc.devRef .tc main_v31) = val_main_v31 (F := Ideal) (A1 m c) :=
  (by show StableHlo.after hostOps3 (W8 m ρ c) (Proc.devRef .tc main_v31) = _; host_eval <;> rfl :
    W9 m ρ c (Proc.devRef .tc main_v31) = W8 m ρ c (Proc.devRef .tc main_v31)).trans (w8_v31 m ρ c)
theorem w9_arg2 : W9 m ρ c (Proc.devRef .tc main_arg2) = (A2 m c) :=
  (by show StableHlo.after hostOps3 (W8 m ρ c) (Proc.devRef .tc main_arg2) = _; host_eval <;> rfl :
    W9 m ρ c (Proc.devRef .tc main_arg2) = W8 m ρ c (Proc.devRef .tc main_arg2)).trans (w8_arg2 m ρ c)
theorem w9_arg3 : W9 m ρ c (Proc.devRef .tc main_arg3) = (A3 m c) :=
  (by show StableHlo.after hostOps3 (W8 m ρ c) (Proc.devRef .tc main_arg3) = _; host_eval <;> rfl :
    W9 m ρ c (Proc.devRef .tc main_arg3) = W8 m ρ c (Proc.devRef .tc main_arg3)).trans (w8_arg3 m ρ c)
theorem w9_arg4 : W9 m ρ c (Proc.devRef .tc main_arg4) = (A4 m c) :=
  (by show StableHlo.after hostOps3 (W8 m ρ c) (Proc.devRef .tc main_arg4) = _; host_eval <;> rfl :
    W9 m ρ c (Proc.devRef .tc main_arg4) = W8 m ρ c (Proc.devRef .tc main_arg4)).trans (w8_arg4 m ρ c)
theorem w9_arg5 : W9 m ρ c (Proc.devRef .tc main_arg5) = (A5 m c) :=
  (by show StableHlo.after hostOps3 (W8 m ρ c) (Proc.devRef .tc main_arg5) = _; host_eval <;> rfl :
    W9 m ρ c (Proc.devRef .tc main_arg5) = W8 m ρ c (Proc.devRef .tc main_arg5)).trans (w8_arg5 m ρ c)
theorem w9_arg6 : W9 m ρ c (Proc.devRef .tc main_arg6) = (A6 m c) :=
  (by show StableHlo.after hostOps3 (W8 m ρ c) (Proc.devRef .tc main_arg6) = _; host_eval <;> rfl :
    W9 m ρ c (Proc.devRef .tc main_arg6) = W8 m ρ c (Proc.devRef .tc main_arg6)).trans (w8_arg6 m ρ c)
theorem w9_arg7 : W9 m ρ c (Proc.devRef .tc main_arg7) = (A7 m c) :=
  (by show StableHlo.after hostOps3 (W8 m ρ c) (Proc.devRef .tc main_arg7) = _; host_eval <;> rfl :
    W9 m ρ c (Proc.devRef .tc main_arg7) = W8 m ρ c (Proc.devRef .tc main_arg7)).trans (w8_arg7 m ρ c)

/-! Boundary 10: what the earlier stretches computed from the edge list, and the parameter stacks, are still there. -/
theorem w10_v3 : W10 m ρ c (Proc.devRef .tc main_v3) = val_main_v3 (F := Ideal) (A1 m c) :=
  (W10_of_ne m ρ c main_v3 (by decide)).trans (w9_v3 m ρ c)
theorem w10_v6 : W10 m ρ c (Proc.devRef .tc main_v6) = val_main_v6 (F := Ideal) (A1 m c) :=
  (W10_of_ne m ρ c main_v6 (by decide)).trans (w9_v6 m ρ c)
theorem w10_v31 : W10 m ρ c (Proc.devRef .tc main_v31) = val_main_v31 (F := Ideal) (A1 m c) :=
  (W10_of_ne m ρ c main_v31 (by decide)).trans (w9_v31 m ρ c)
theorem w10_arg2 : W10 m ρ c (Proc.devRef .tc main_arg2) = (A2 m c) :=
  (W10_of_ne m ρ c main_arg2 (by decide)).trans (w9_arg2 m ρ c)
theorem w10_arg3 : W10 m ρ c (Proc.devRef .tc main_arg3) = (A3 m c) :=
  (W10_of_ne m ρ c main_arg3 (by decide)).trans (w9_arg3 m ρ c)
theorem w10_arg4 : W10 m ρ c (Proc.devRef .tc main_arg4) = (A4 m c) :=
  (W10_of_ne m ρ c main_arg4 (by decide)).trans (w9_arg4 m ρ c)
theorem w10_arg5 : W10 m ρ c (Proc.devRef .tc main_arg5) = (A5 m c) :=
  (W10_of_ne m ρ c main_arg5 (by decide)).trans (w9_arg5 m ρ c)
theorem w10_arg6 : W10 m ρ c (Proc.devRef .tc main_arg6) = (A6 m c) :=
  (W10_of_ne m ρ c main_arg6 (by decide)).trans (w9_arg6 m ρ c)
theorem w10_arg7 : W10 m ρ c (Proc.devRef .tc main_arg7) = (A7 m c) :=
  (W10_of_ne m ρ c main_arg7 (by decide)).trans (w9_arg7 m ρ c)

/-! Boundary 11: what the earlier stretches computed from the edge list, and the parameter stacks, are still there. -/
theorem w11_v3 : W11 m ρ c (Proc.devRef .tc main_v3) = val_main_v3 (F := Ideal) (A1 m c) :=
  (by show StableHlo.after hostOps4 (W10 m ρ c) (Proc.devRef .tc main_v3) = _; host_eval <;> rfl :
    W11 m ρ c (Proc.devRef .tc main_v3) = W10 m ρ c (Proc.devRef .tc main_v3)).trans (w10_v3 m ρ c)
theorem w11_v6 : W11 m ρ c (Proc.devRef .tc main_v6) = val_main_v6 (F := Ideal) (A1 m c) :=
  (by show StableHlo.after hostOps4 (W10 m ρ c) (Proc.devRef .tc main_v6) = _; host_eval <;> rfl :
    W11 m ρ c (Proc.devRef .tc main_v6) = W10 m ρ c (Proc.devRef .tc main_v6)).trans (w10_v6 m ρ c)
theorem w11_v31 : W11 m ρ c (Proc.devRef .tc main_v31) = val_main_v31 (F := Ideal) (A1 m c) :=
  (by show StableHlo.after hostOps4 (W10 m ρ c) (Proc.devRef .tc main_v31) = _; host_eval <;> rfl :
    W11 m ρ c (Proc.devRef .tc main_v31) = W10 m ρ c (Proc.devRef .tc main_v31)).trans (w10_v31 m ρ c)
theorem w11_arg2 : W11 m ρ c (Proc.devRef .tc main_arg2) = (A2 m c) :=
  (by show StableHlo.after hostOps4 (W10 m ρ c) (Proc.devRef .tc main_arg2) = _; host_eval <;> rfl :
    W11 m ρ c (Proc.devRef .tc main_arg2) = W10 m ρ c (Proc.devRef .tc main_arg2)).trans (w10_arg2 m ρ c)
theorem w11_arg3 : W11 m ρ c (Proc.devRef .tc main_arg3) = (A3 m c) :=
  (by show StableHlo.after hostOps4 (W10 m ρ c) (Proc.devRef .tc main_arg3) = _; host_eval <;> rfl :
    W11 m ρ c (Proc.devRef .tc main_arg3) = W10 m ρ c (Proc.devRef .tc main_arg3)).trans (w10_arg3 m ρ c)
theorem w11_arg4 : W11 m ρ c (Proc.devRef .tc main_arg4) = (A4 m c) :=
  (by show StableHlo.after hostOps4 (W10 m ρ c) (Proc.devRef .tc main_arg4) = _; host_eval <;> rfl :
    W11 m ρ c (Proc.devRef .tc main_arg4) = W10 m ρ c (Proc.devRef .tc main_arg4)).trans (w10_arg4 m ρ c)
theorem w11_arg5 : W11 m ρ c (Proc.devRef .tc main_arg5) = (A5 m c) :=
  (by show StableHlo.after hostOps4 (W10 m ρ c) (Proc.devRef .tc main_arg5) = _; host_eval <;> rfl :
    W11 m ρ c (Proc.devRef .tc main_arg5) = W10 m ρ c (Proc.devRef .tc main_arg5)).trans (w10_arg5 m ρ c)
theorem w11_arg6 : W11 m ρ c (Proc.devRef .tc main_arg6) = (A6 m c) :=
  (by show StableHlo.after hostOps4 (W10 m ρ c) (Proc.devRef .tc main_arg6) = _; host_eval <;> rfl :
    W11 m ρ c (Proc.devRef .tc main_arg6) = W10 m ρ c (Proc.devRef .tc main_arg6)).trans (w10_arg6 m ρ c)
theorem w11_arg7 : W11 m ρ c (Proc.devRef .tc main_arg7) = (A7 m c) :=
  (by show StableHlo.after hostOps4 (W10 m ρ c) (Proc.devRef .tc main_arg7) = _; host_eval <;> rfl :
    W11 m ρ c (Proc.devRef .tc main_arg7) = W10 m ρ c (Proc.devRef .tc main_arg7)).trans (w10_arg7 m ρ c)

/-! Boundary 12: what the earlier stretches computed from the edge list, and the parameter stacks, are still there. -/
theorem w12_v3 : W12 m ρ c (Proc.devRef .tc main_v3) = val_main_v3 (F := Ideal) (A1 m c) :=
  (W12_of_ne m ρ c main_v3 (by decide)).trans (w11_v3 m ρ c)
theorem w12_v6 : W12 m ρ c (Proc.devRef .tc main_v6) = val_main_v6 (F := Ideal) (A1 m c) :=
  (W12_of_ne m ρ c main_v6 (by decide)).trans (w11_v6 m ρ c)
theorem w12_v31 : W12 m ρ c (Proc.devRef .tc main_v31) = val_main_v31 (F := Ideal) (A1 m c) :=
  (W12_of_ne m ρ c main_v31 (by decide)).trans (w11_v31 m ρ c)
theorem w12_arg2 : W12 m ρ c (Proc.devRef .tc main_arg2) = (A2 m c) :=
  (W12_of_ne m ρ c main_arg2 (by decide)).trans (w11_arg2 m ρ c)
theorem w12_arg3 : W12 m ρ c (Proc.devRef .tc main_arg3) = (A3 m c) :=
  (W12_of_ne m ρ c main_arg3 (by decide)).trans (w11_arg3 m ρ c)
theorem w12_arg4 : W12 m ρ c (Proc.devRef .tc main_arg4) = (A4 m c) :=
  (W12_of_ne m ρ c main_arg4 (by decide)).trans (w11_arg4 m ρ c)
theorem w12_arg5 : W12 m ρ c (Proc.devRef .tc main_arg5) = (A5 m c) :=
  (W12_of_ne m ρ c main_arg5 (by decide)).trans (w11_arg5 m ρ c)
theorem w12_arg6 : W12 m ρ c (Proc.devRef .tc main_arg6) = (A6 m c) :=
  (W12_of_ne m ρ c main_arg6 (by decide)).trans (w11_arg6 m ρ c)
theorem w12_arg7 : W12 m ρ c (Proc.devRef .tc main_arg7) = (A7 m c) :=
  (W12_of_ne m ρ c main_arg7 (by decide)).trans (w11_arg7 m ρ c)

/-! ## Layer 0 -/

/-- Boundary 5: the gather, scaling and scatter-add are the reference's own operations on the same operands. -/
theorem w5_agg : W5 m ρ c (Proc.devRef .tc main_v47) = val_main_v47 (F := Ideal) (A0 m c) (A1 m c) (A2 m c) := by
  show StableHlo.after hostOps1 (W4 m ρ c) (Proc.devRef .tc main_v47) = _
  host_eval
  rw [w4_out m ρ c, w4_v3 m ρ c, w4_v6 m ρ c, w4_v31 m ρ c]
  rfl

theorem w5_row1 : W5 m ρ c (Proc.devRef .tc main_v58)
    = shapeCast S1x128 (val_main_v49 (F := Ideal) (A3 m c)) shapeCasts_S128_S1x128 := by
  show StableHlo.after hostOps1 (W4 m ρ c) (Proc.devRef .tc main_v58) = _
  host_eval
  rw [w4_arg3 m ρ c]
  rfl
theorem w5_row2 : W5 m ρ c (Proc.devRef .tc main_v59)
    = shapeCast S1x128 (val_main_v54 (F := Ideal) (A6 m c)) shapeCasts_S128_S1x128 := by
  show StableHlo.after hostOps1 (W4 m ρ c) (Proc.devRef .tc main_v59) = _
  host_eval
  rw [w4_arg6 m ρ c]
  rfl
theorem w5_row3 : W5 m ρ c (Proc.devRef .tc main_v60)
    = shapeCast S1x128 (val_main_v59 (F := Ideal) (A7 m c)) shapeCasts_S128_S1x128 := by
  show StableHlo.after hostOps1 (W4 m ρ c) (Proc.devRef .tc main_v60) = _
  host_eval
  rw [w4_arg7 m ρ c]
  rfl
theorem w5_row4 : W5 m ρ c (Proc.devRef .tc main_v61)
    = shapeCast S1x128 (val_main_v67 (F := Ideal) (A4 m c)) shapeCasts_S128_S1x128 := by
  show StableHlo.after hostOps1 (W4 m ρ c) (Proc.devRef .tc main_v61) = _
  host_eval
  rw [w4_arg4 m ρ c]
  rfl
theorem w5_row5 : W5 m ρ c (Proc.devRef .tc main_v62)
    = shapeCast S1x128 (val_main_v72 (F := Ideal) (A5 m c)) shapeCasts_S128_S1x128 := by
  show StableHlo.after hostOps1 (W4 m ρ c) (Proc.devRef .tc main_v62) = _
  host_eval
  rw [w4_arg5 m ρ c]
  rfl

/-- Boundary 6: normalisation 0 leaves the reference's activations. -/
theorem w6_out : W6 m ρ c (Proc.devRef .tc main_v63) = val_main_v76 (F := Ideal) (A0 m c) (A1 m c) (A2 m c) (A3 m c) (A4 m c) (A5 m c) (A6 m c) (A7 m c) := by
  refine (W6_arr m ρ c 6).trans ?_
  rw [final_bn1 (V5 m ρ) c]
  rw [show V5 m ρ c main_v47 = _ from w5_agg m ρ c, show V5 m ρ c main_v58 = _ from w5_row1 m ρ c,
    show V5 m ρ c main_v59 = _ from w5_row2 m ρ c, show V5 m ρ c main_v60 = _ from w5_row3 m ρ c,
    show V5 m ρ c main_v61 = _ from w5_row4 m ρ c, show V5 m ρ c main_v62 = _ from w5_row5 m ρ c]
  exact (Cert.ReferenceIdeal.Stages.bn0 _ _ _ _ _ _ _ _ shapeCasts_S128_S1x128).symm

/-! ## Layer 1 -/

/-- Boundary 7: the activations are kept and the next weight matrix is sliced from the stack. -/
theorem w7_h : W7 m ρ c (Proc.devRef .tc main_v63) = W6 m ρ c (Proc.devRef .tc main_v63) := by
  show StableHlo.after hostOps2 (W6 m ρ c) (Proc.devRef .tc main_v63) = _
  host_eval <;> rfl
theorem w7_w : W7 m ρ c (Proc.devRef .tc main_v65) = val_main_v78 (F := Ideal) (A2 m c) := by
  show StableHlo.after hostOps2 (W6 m ρ c) (Proc.devRef .tc main_v65) = _
  host_eval
  rw [w6_arg2 m ρ c]
  rfl

theorem w7_out : W7 m ρ c (Proc.devRef .tc main_v63) = val_main_v76 (F := Ideal) (A0 m c) (A1 m c) (A2 m c) (A3 m c) (A4 m c) (A5 m c) (A6 m c) (A7 m c) := (w7_h m ρ c).trans (w6_out m ρ c)

/-- Boundary 8: dense layer 1 leaves the reference's product. -/
theorem w8_out : W8 m ρ c (Proc.devRef .tc main_v66) = val_main_v79 (F := Ideal) (A0 m c) (A1 m c) (A2 m c) (A3 m c) (A4 m c) (A5 m c) (A6 m c) (A7 m c) := by
  refine (W8_arr m ρ c 2).trans ?_
  rw [final_mm2 (V7 m ρ) c]
  rw [show V7 m ρ c main_v63 = _ from w7_out m ρ c, show V7 m ρ c main_v65 = _ from w7_w m ρ c]
  exact (Cert.ReferenceIdeal.Stages.dot1 _ _ _ _ _ _ _ _).symm

/-- Boundary 9: the gather, scaling and scatter-add are the reference's own operations on the same operands. -/
theorem w9_agg : W9 m ρ c (Proc.devRef .tc main_v79) = val_main_v92 (F := Ideal) (A0 m c) (A1 m c) (A2 m c) (A3 m c) (A4 m c) (A5 m c) (A6 m c) (A7 m c) := by
  show StableHlo.after hostOps3 (W8 m ρ c) (Proc.devRef .tc main_v79) = _
  host_eval
  rw [w8_out m ρ c, w8_v3 m ρ c, w8_v6 m ρ c, w8_v31 m ρ c]
  rfl

theorem w9_row1 : W9 m ρ c (Proc.devRef .tc main_v90)
    = shapeCast S1x128 (val_main_v94 (F := Ideal) (A3 m c)) shapeCasts_S128_S1x128 := by
  show StableHlo.after hostOps3 (W8 m ρ c) (Proc.devRef .tc main_v90) = _
  host_eval
  rw [w8_arg3 m ρ c]
  rfl
theorem w9_row2 : W9 m ρ c (Proc.devRef .tc main_v91)
    = shapeCast S1x128 (val_main_v99 (F := Ideal) (A6 m c)) shapeCasts_S128_S1x128 := by
  show StableHlo.after hostOps3 (W8 m ρ c) (Proc.devRef .tc main_v91) = _
  host_eval
  rw [w8_arg6 m ρ c]
  rfl
theorem w9_row3 : W9 m ρ c (Proc.devRef .tc main_v92)
    = shapeCast S1x128 (val_main_v104 (F := Ideal) (A7 m c)) shapeCasts_S128_S1x128 := by
  show StableHlo.after hostOps3 (W8 m ρ c) (Proc.devRef .tc main_v92) = _
  host_eval
  rw [w8_arg7 m ρ c]
  rfl
theorem w9_row4 : W9 m ρ c (Proc.devRef .tc main_v93)
    = shapeCast S1x128 (val_main_v112 (F := Ideal) (A4 m c)) shapeCasts_S128_S1x128 := by
  show StableHlo.after hostOps3 (W8 m ρ c) (Proc.devRef .tc main_v93) = _
  host_eval
  rw [w8_arg4 m ρ c]
  rfl
theorem w9_row5 : W9 m ρ c (Proc.devRef .tc main_v94)
    = shapeCast S1x128 (val_main_v117 (F := Ideal) (A5 m c)) shapeCasts_S128_S1x128 := by
  show StableHlo.after hostOps3 (W8 m ρ c) (Proc.devRef .tc main_v94) = _
  host_eval
  rw [w8_arg5 m ρ c]
  rfl

/-- Boundary 10: normalisation 1 leaves the reference's activations. -/
theorem w10_out : W10 m ρ c (Proc.devRef .tc main_v95) = val_main_v121 (F := Ideal) (A0 m c) (A1 m c) (A2 m c) (A3 m c) (A4 m c) (A5 m c) (A6 m c) (A7 m c) := by
  refine (W10_arr m ρ c 6).trans ?_
  rw [final_bn3 (V9 m ρ) c]
  rw [show V9 m ρ c main_v79 = _ from w9_agg m ρ c, show V9 m ρ c main_v90 = _ from w9_row1 m ρ c,
    show V9 m ρ c main_v91 = _ from w9_row2 m ρ c, show V9 m ρ c main_v92 = _ from w9_row3 m ρ c,
    show V9 m ρ c main_v93 = _ from w9_row4 m ρ c, show V9 m ρ c main_v94 = _ from w9_row5 m ρ c]
  exact (Cert.ReferenceIdeal.Stages.bn1 _ _ _ _ _ _ _ _ shapeCasts_S128_S1x128).symm

/-! ## Layer 2 -/

/-- Boundary 11: the activations are kept and the next weight matrix is sliced from the stack. -/
theorem w11_h : W11 m ρ c (Proc.devRef .tc main_v95) = W10 m ρ c (Proc.devRef .tc main_v95) := by
  show StableHlo.after hostOps4 (W10 m ρ c) (Proc.devRef .tc main_v95) = _
  host_eval <;> rfl
theorem w11_w : W11 m ρ c (Proc.devRef .tc main_v97) = val_main_v123 (F := Ideal) (A2 m c) := by
  show StableHlo.after hostOps4 (W10 m ρ c) (Proc.devRef .tc main_v97) = _
  host_eval
  rw [w10_arg2 m ρ c]
  rfl

theorem w11_out : W11 m ρ c (Proc.devRef .tc main_v95) = val_main_v121 (F := Ideal) (A0 m c) (A1 m c) (A2 m c) (A3 m c) (A4 m c) (A5 m c) (A6 m c) (A7 m c) := (w11_h m ρ c).trans (w10_out m ρ c)

/-- Boundary 12: dense layer 2 leaves the reference's product. -/
theorem w12_out : W12 m ρ c (Proc.devRef .tc main_v98) = val_main_v124 (F := Ideal) (A0 m c) (A1 m c) (A2 m c) (A3 m c) (A4 m c) (A5 m c) (A6 m c) (A7 m c) := by
  refine (W12_arr m ρ c 2).trans ?_
  rw [final_mm4 (V11 m ρ) c]
  rw [show V11 m ρ c main_v95 = _ from w11_out m ρ c, show V11 m ρ c main_v97 = _ from w11_w m ρ c]
  exact (Cert.ReferenceIdeal.Stages.dot2 _ _ _ _ _ _ _ _).symm

/-- Boundary 13: the gather, scaling and scatter-add are the reference's own operations on the same operands. -/
theorem w13_agg : W13 m ρ c (Proc.devRef .tc main_v111) = val_main_v137 (F := Ideal) (A0 m c) (A1 m c) (A2 m c) (A3 m c) (A4 m c) (A5 m c) (A6 m c) (A7 m c) := by
  show StableHlo.after hostOps5 (W12 m ρ c) (Proc.devRef .tc main_v111) = _
  host_eval
  rw [w12_out m ρ c, w12_v3 m ρ c, w12_v6 m ρ c, w12_v31 m ρ c]
  rfl

theorem w13_row1 : W13 m ρ c (Proc.devRef .tc main_v122)
    = shapeCast S1x128 (val_main_v139 (F := Ideal) (A3 m c)) shapeCasts_S128_S1x128 := by
  show StableHlo.after hostOps5 (W12 m ρ c) (Proc.devRef .tc main_v122) = _
  host_eval
  rw [w12_arg3 m ρ c]
  rfl
theorem w13_row2 : W13 m ρ c (Proc.devRef .tc main_v123)
    = shapeCast S1x128 (val_main_v144 (F := Ideal) (A6 m c)) shapeCasts_S128_S1x128 := by
  show StableHlo.after hostOps5 (W12 m ρ c) (Proc.devRef .tc main_v123) = _
  host_eval
  rw [w12_arg6 m ρ c]
  rfl
theorem w13_row3 : W13 m ρ c (Proc.devRef .tc main_v124)
    = shapeCast S1x128 (val_main_v149 (F := Ideal) (A7 m c)) shapeCasts_S128_S1x128 := by
  show StableHlo.after hostOps5 (W12 m ρ c) (Proc.devRef .tc main_v124) = _
  host_eval
  rw [w12_arg7 m ρ c]
  rfl
theorem w13_row4 : W13 m ρ c (Proc.devRef .tc main_v125)
    = shapeCast S1x128 (val_main_v157 (F := Ideal) (A4 m c)) shapeCasts_S128_S1x128 := by
  show StableHlo.after hostOps5 (W12 m ρ c) (Proc.devRef .tc main_v125) = _
  host_eval
  rw [w12_arg4 m ρ c]
  rfl
theorem w13_row5 : W13 m ρ c (Proc.devRef .tc main_v126)
    = shapeCast S1x128 (val_main_v162 (F := Ideal) (A5 m c)) shapeCasts_S128_S1x128 := by
  show StableHlo.after hostOps5 (W12 m ρ c) (Proc.devRef .tc main_v126) = _
  host_eval
  rw [w12_arg5 m ρ c]
  rfl

/-- Boundary 14: normalisation 2 leaves the reference's activations. -/
theorem w14_out : W14 m ρ c (Proc.devRef .tc main_v127) = val_main_v166 (F := Ideal) (A0 m c) (A1 m c) (A2 m c) (A3 m c) (A4 m c) (A5 m c) (A6 m c) (A7 m c) := by
  refine (W14_arr m ρ c 6).trans ?_
  rw [final_bn5 (V13 m ρ) c]
  rw [show V13 m ρ c main_v111 = _ from w13_agg m ρ c, show V13 m ρ c main_v122 = _ from w13_row1 m ρ c,
    show V13 m ρ c main_v123 = _ from w13_row2 m ρ c, show V13 m ρ c main_v124 = _ from w13_row3 m ρ c,
    show V13 m ρ c main_v125 = _ from w13_row4 m ρ c, show V13 m ρ c main_v126 = _ from w13_row5 m ρ c]
  exact (Cert.ReferenceIdeal.Stages.bn2 _ _ _ _ _ _ _ _ shapeCasts_S128_S1x128).symm

/-! ## The classifier -/

/-- The classifier's weights and bias are arguments, which no stretch and no kernel writes: the last boundary holds
    them as launched, and the classifier's entry boundary holds what the last one does. -/
theorem w15_arg8 : W15 m ρ c (Proc.devRef .tc main_arg8) = (A8 m c) :=
  ((W16_arr m ρ c 1).trans (((dat6 (V15 m ρ) c).arrAt_in 1 rfl _).trans (A_eq6 (V15 m ρ) c 1))).symm.trans (W16_main_arg8 m ρ c)
theorem w14_arg9 : W14 m ρ c (Proc.devRef .tc main_arg9) = (A9 m c) :=
  ((W16_of_ne m ρ c main_arg9 (by decide)).trans
    (by show StableHlo.after hostOps6 (W14 m ρ c) (Proc.devRef .tc main_arg9) = _; host_eval <;> rfl :
      W15 m ρ c (Proc.devRef .tc main_arg9) = W14 m ρ c (Proc.devRef .tc main_arg9))).symm.trans (W16_main_arg9 m ρ c)
theorem w15_h : W15 m ρ c (Proc.devRef .tc main_v127) = val_main_v166 (F := Ideal) (A0 m c) (A1 m c) (A2 m c) (A3 m c) (A4 m c) (A5 m c) (A6 m c) (A7 m c) :=
  (by show StableHlo.after hostOps6 (W14 m ρ c) (Proc.devRef .tc main_v127) = _; host_eval <;> rfl :
    W15 m ρ c (Proc.devRef .tc main_v127) = W14 m ρ c (Proc.devRef .tc main_v127)).trans (w14_out m ρ c)
theorem w15_bias : W15 m ρ c (Proc.devRef .tc main_v128) = shapeCast S1x2 (A9 m c) shapeCasts_S2_S1x2 := by
  show StableHlo.after hostOps6 (W14 m ρ c) (Proc.devRef .tc main_v128) = _
  host_eval
  rw [w14_arg9 m ρ c]
  rfl

/-- The result array after the run is the reference's result term of the argument arrays. -/
theorem result_eq : W16 m ρ c (Proc.devRef .tc main_v129)
    = val_main_v171 (F := Ideal) (A0 m c) (A1 m c) (A2 m c) (A3 m c) (A4 m c) (A5 m c) (A6 m c) (A7 m c) (A8 m c) (A9 m c) := by
  refine (W16_arr m ρ c 3).trans ?_
  rw [final_cls (V15 m ρ) c]
  rw [show V15 m ρ c main_v127 = _ from w15_h m ρ c, show V15 m ρ c main_arg8 = _ from w15_arg8 m ρ c,
    show V15 m ρ c main_v128 = _ from w15_bias m ρ c]
  funext i
  obtain ⟨r, q, rfl⟩ : ∃ (r : Fin 100000) (q : Fin 2), i = ix2 r q := ⟨i 0, i 1, eq_ix2 i⟩
  exact (Cert.ReferenceIdeal.Stages.result_apply _ _ _ _ _ _ _ _ _ _ shapeCasts_S2_S1x2 r q).symm

end Cert.KernelIdeal.Bridge

end
-- ==== Proof.lean ====
/-
  A three-layer graph convolution network on 100000 nodes with 128 features, 1.6 million edges plus self loops and
  two output classes: seven pipelined kernels among host operations, against the plain host program.

  Both programs build the same source, target and symmetric-normalisation vectors from the edge list by the same host
  operations, and each layer gathers rows of h W by source, scales them and scatter-adds them by target with the same
  host operations. They differ only in the dense stages. The kernel program multiplies h by W[l] in a kernel tiled
  over 5000-row blocks, rounding to bf16 on the way in, which is the identity on exact values; a block of a product is
  the product of the block, so the tiles assemble the host's one product. It adds the bias, normalises by the
  running statistics, scales, shifts and keeps the positive part in a second kernel whose parameters arrive as rows
  [1, 128]; the host broadcasts the same vectors along the rows, and the two read the same entry (r, q). The classifier
  kernel takes logits h Wc + bc and the log-softmax of each row through lane reductions; the host's reductions along
  axis 1 read the same maximum and the same sum. No algebraic law beyond reading these spellings index by index is
  used, so the finiteness of the inputs is never opened.

  The three frames are the programs' runs with the results dropped; the idealization rewrote nothing, so the
  preservation claim is trivial.
-/
import proofs.«144072_j32246614458736_1_alg».proof.Defs
import proofs.«144072_j32246614458736_1_alg».proof.Proof.Gen.Kernel
import proofs.«144072_j32246614458736_1_alg».proof.Proof.Gen.Kernel.Frame
import proofs.«144072_j32246614458736_1_alg».proof.Proof.Gen.KernelIdeal
import proofs.«144072_j32246614458736_1_alg».proof.Proof.Gen.KernelIdeal.Frame
import proofs.«144072_j32246614458736_1_alg».proof.Proof.Gen.ReferenceIdeal
import proofs.«144072_j32246614458736_1_alg».proof.Proof.Gen.Pre_finite_inputs
import proofs.«144072_j32246614458736_1_alg».proof.Proof.RefRun
import proofs.«144072_j32246614458736_1_alg».proof.Proof.RefRead
import proofs.«144072_j32246614458736_1_alg».proof.Proof.ResultRun
import proofs.«144072_j32246614458736_1_alg».proof.Proof.Levels
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- The idealized kernel's result array ends at the last boundary's contents, which is the reference's result term
    of the kernel's arguments; the reference's run ends at that term of its own arguments, which agree. -/
theorem algebraic : Cert.algebraic_KernelIdeal_ReferenceIdeal := by
  intro m ρ m' ρ' _ hagree
  refine ⟨fun c => Cert.KernelIdeal.Gen.W16 m ρ c (Proc.devRef .tc Cert.KernelIdeal.main_v129),
    Cert.KernelIdeal.Bridge.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  show Cert.ReferenceIdeal.Value.res_main_v171 m' c = Cert.KernelIdeal.Gen.W16 m ρ c (Proc.devRef .tc Cert.KernelIdeal.main_v129)
  rw [Cert.KernelIdeal.Bridge.result_eq m ρ c, Cert.ReferenceIdeal.Read.val_main_v171_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
